-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S64x1024x6 : Shape := ⟨3, ![64, 1024, 6]⟩
abbrev S256x8 : Shape := ⟨2, ![256, 8]⟩
abbrev S256x256 : Shape := ⟨2, ![256, 256]⟩
abbrev S6x256 : Shape := ⟨2, ![6, 256]⟩
abbrev S256 : Shape := ⟨1, ![256]⟩
abbrev S6 : Shape := ⟨1, ![6]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S64x1024x6 : S_.BroadcastsInDim S64x1024x6 (![] : Fin 0 → Fin S64x1024x6.rank)
  reducesTo_S64x1024x6_S_d0_1_2 : S64x1024x6.ReducesTo [0, 1, 2] S_
  bcast_S_S256x8 : S_.BroadcastsInDim S256x8 (![] : Fin 0 → Fin S256x8.rank)
  reducesTo_S256x8_S_d0_1 : S256x8.ReducesTo [0, 1] S_
  bcast_S_S256x256 : S_.BroadcastsInDim S256x256 (![] : Fin 0 → Fin S256x256.rank)
  reducesTo_S256x256_S_d0_1 : S256x256.ReducesTo [0, 1] S_
  bcast_S_S6x256 : S_.BroadcastsInDim S6x256 (![] : Fin 0 → Fin S6x256.rank)
  reducesTo_S6x256_S_d0_1 : S6x256.ReducesTo [0, 1] S_
  bcast_S_S256 : S_.BroadcastsInDim S256 (![] : Fin 0 → Fin S256.rank)
  reducesTo_S256_S_d0 : S256.ReducesTo [0] S_
  bcast_S_S6 : S_.BroadcastsInDim S6 (![] : Fin 0 → Fin S6.rank)
  reducesTo_S6_S_d0 : S6.ReducesTo [0] S_

variable [Facts]

def fn_part2 {F : FTy → Type} [FloatOps F] (main_arg7 : FVec F S256 .f32) (main_arg8 : FVec F S256 .f32) (main_arg9 : FVec F S6 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S6 .f32 := Host.absf main_arg9
  let main_cst_16 : FVec F S_ .f32 := constant S_ .f32 0x7F800000#32
  let main_v45 : FVec F S6 .f32 := broadcastInDim S6 ![] bcast_S_S6 main_cst_16
  let main_v46 : IVec S6 1 := cmpf .olt main_v44 main_v45
  let main_c_17 : IVec S_ 1 := constantI S_ 1 1#1
  let main_v47 : IVec S_ 1 := (fun x v => Host.reduce IntOp.andi x v reducesTo_S6_S_d0 h_S_) main_v46 main_c_17
  let main_v48 : IVec S_ 1 := andi main_v43 main_v47
  main_v48

def fn_part1 {F : FTy → Type} [FloatOps F] (main_arg4 : FVec F S256x8 .f32) (main_arg5 : FVec F S256x256 .f32) (main_arg6 : FVec F S6x256 .f32) (main_arg7 : FVec F S256 .f32) (main_arg8 : FVec F S256 .f32) (main_arg9 : FVec F S6 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S256x8 .f32 := Host.absf main_arg4
  let main_cst_6 : FVec F S_ .f32 := constant S_ .f32 0x7F800000#32
  let main_v20 : FVec F S256x8 .f32 := broadcastInDim S256x8 ![] bcast_S_S256x8 main_cst_6
  let main_v21 : IVec S256x8 1 := cmpf .olt main_v19 main_v20
  let main_c_7 : IVec S_ 1 := constantI S_ 1 1#1
  let main_v22 : IVec S_ 1 := (fun x v => Host.reduce IntOp.andi x v reducesTo_S256x8_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S6x256 .f32 := Host.absf main_arg6
  let main_cst_10 : FVec F S_ .f32 := constant S_ .f32 0x7F800000#32
  let main_v30 : FVec F S6x256 .f32 := broadcastInDim S6x256 ![] bcast_S_S6x256 main_cst_10
  let main_v31 : IVec S6x256 1 := cmpf .olt main_v29 main_v30
  let main_c_11 : IVec S_ 1 := constantI S_ 1 1#1
  let main_v32 : IVec S_ 1 := (fun x v => Host.reduce IntOp.andi x v reducesTo_S6x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S64x1024 .f32) (main_arg1 : FVec F S64x1024x6 .f32) (main_arg2 : FVec F S64x1024 .f32) (main_arg3 : FVec F S64x1024 .f32) (main_arg4 : FVec F S256x8 .f32) (main_arg5 : FVec F S256x256 .f32) (main_arg6 : FVec F S6x256 .f32) (main_arg7 : FVec F S256 .f32) (main_arg8 : FVec F S256 .f32) (main_arg9 : FVec F S6 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S64x1024x6 .f32 := Host.absf main_arg1
  let main_cst_0 : FVec F S_ .f32 := constant S_ .f32 0x7F800000#32
  let main_v5 : FVec F S64x1024x6 .f32 := broadcastInDim S64x1024x6 ![] bcast_S_S64x1024x6 main_cst_0
  let main_v6 : IVec S64x1024x6 1 := cmpf .olt main_v4 main_v5
  let main_c_1 : IVec S_ 1 := constantI S_ 1 1#1
  let main_v7 : IVec S_ 1 := (fun x v => Host.reduce IntOp.andi x v reducesTo_S64x1024x6_S_d0_1_2 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_arg7 main_arg8 main_arg9 main_v13 main_v16
-- ==== Kernel.lean ====
abbrev S64x1024 : Shape := ⟨2, ![64, 1024]⟩
abbrev S64x1024x6 : Shape := ⟨3, ![64, 1024, 6]⟩
abbrev S256x8 : Shape := ⟨2, ![256, 8]⟩
abbrev S256x256 : Shape := ⟨2, ![256, 256]⟩
abbrev S6x256 : Shape := ⟨2, ![6, 256]⟩
abbrev S256 : Shape := ⟨1, ![256]⟩
abbrev S6 : Shape := ⟨1, ![6]⟩
abbrev S64x1024x1 : Shape := ⟨3, ![64, 1024, 1]⟩
abbrev S64x1024x8 : Shape := ⟨3, ![64, 1024, 8]⟩
abbrev S65536x8 : Shape := ⟨2, ![65536, 8]⟩
abbrev S8x256 : Shape := ⟨2, ![8, 256]⟩
abbrev S256x6 : Shape := ⟨2, ![256, 6]⟩
abbrev S65536x54 : Shape := ⟨2, ![65536, 54]⟩
abbrev S4096x8 : Shape := ⟨2, ![4096, 8]⟩
abbrev S4096x54 : Shape := ⟨2, ![4096, 54]⟩
abbrev S4096x256 : Shape := ⟨2, ![4096, 256]⟩
abbrev S1x256 : Shape := ⟨2, ![1, 256]⟩
abbrev S4096x6 : Shape := ⟨2, ![4096, 6]⟩
abbrev S1x6 : Shape := ⟨2, ![1, 6]⟩
abbrev S4096x48 : Shape := ⟨2, ![4096, 48]⟩
abbrev S64x1024x54 : Shape := ⟨3, ![64, 1024, 54]⟩
abbrev S64x1024x48 : Shape := ⟨3, ![64, 1024, 48]⟩
abbrev S64x1024x6x8 : Shape := ⟨4, ![64, 1024, 6, 8]⟩
abbrev S64x1024x6x6 : Shape := ⟨4, ![64, 1024, 6, 6]⟩
abbrev S64x1024x6x1 : Shape := ⟨4, ![64, 1024, 6, 1]⟩

abbrev nBuf : Space → Nat
  | .hbm => 27
  | .vmem => 13
  | .smem => 0
  | _ => 0

abbrev bufTy : (tb : Table) → Fin (tcTables nBuf tb) → BufTy
  | .hbm, ⟨0, _⟩ => ⟨S64x1024, .f32⟩
  | .hbm, ⟨1, _⟩ => ⟨S64x1024x6, .f32⟩
  | .hbm, ⟨2, _⟩ => ⟨S64x1024, .f32⟩
  | .hbm, ⟨3, _⟩ => ⟨S64x1024, .f32⟩
  | .hbm, ⟨4, _⟩ => ⟨S256x8, .f32⟩
  | .hbm, ⟨5, _⟩ => ⟨S256x256, .f32⟩
  | .hbm, ⟨6, _⟩ => ⟨S6x256, .f32⟩
  | .hbm, ⟨7, _⟩ => ⟨S256, .f32⟩
  | .hbm, ⟨8, _⟩ => ⟨S256, .f32⟩
  | .hbm, ⟨9, _⟩ => ⟨S6, .f32⟩
  | .hbm, ⟨10, _⟩ => ⟨S64x1024x1, .f32⟩
  | .hbm, ⟨11, _⟩ => ⟨S64x1024x1, .f32⟩
  | .hbm, ⟨12, _⟩ => ⟨S64x1024x8, .f32⟩
  | .hbm, ⟨13, _⟩ => ⟨S65536x8, .f32⟩
  | .hbm, ⟨14, _⟩ => ⟨S8x256, .f32⟩
  | .hbm, ⟨15, _⟩ => ⟨S256x256, .f32⟩
  | .hbm, ⟨16, _⟩ => ⟨S256x6, .f32⟩
  | .hbm, ⟨17, _⟩ => ⟨S65536x54, .f32⟩
  | .hbm, ⟨18, _⟩ => ⟨S64x1024x54, .f32⟩
  | .hbm, ⟨19, _⟩ => ⟨S64x1024x6, .f32⟩
  | .hbm, ⟨20, _⟩ => ⟨S64x1024x48, .f32⟩
  | .hbm, ⟨21, _⟩ => ⟨S64x1024x6x8, .f32⟩
  | .hbm, ⟨22, _⟩ => ⟨S64x1024x6x6, .f32⟩
  | .hbm, ⟨23, _⟩ => ⟨S64x1024x6x1, .f32⟩
  | .hbm, ⟨24, _⟩ => ⟨S64x1024x6, .f32⟩
  | .hbm, ⟨25, _⟩ => ⟨S64x1024x6x1, .f32⟩
  | .hbm, ⟨26, _⟩ => ⟨S64x1024x6, .f32⟩
  | .local _ .vmem, ⟨0, _⟩ => ⟨S4096x8, .f32⟩
  | .local _ .vmem, ⟨1, _⟩ => ⟨S4096x8, .f32⟩
  | .local _ .vmem, ⟨2, _⟩ => ⟨S256x8, .f32⟩
  | .local _ .vmem, ⟨3, _⟩ => ⟨S8x256, .f32⟩
  | .local _ .vmem, ⟨4, _⟩ => ⟨S256x256, .f32⟩
  | .local _ .vmem, ⟨5, _⟩ => ⟨S256x256, .f32⟩
  | .local _ .vmem, ⟨6, _⟩ => ⟨S6x256, .f32⟩
  | .local _ .vmem, ⟨7, _⟩ => ⟨S256x6, .f32⟩
  | .local _ .vmem, ⟨8, _⟩ => ⟨S256, .f32⟩
  | .local _ .vmem, ⟨9, _⟩ => ⟨S256, .f32⟩
  | .local _ .vmem, ⟨10, _⟩ => ⟨S6, .f32⟩
  | .local _ .vmem, ⟨11, _⟩ => ⟨S4096x54, .f32⟩
  | .local _ .vmem, ⟨12, _⟩ => ⟨S4096x54, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096x54 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S64x1024_S64x1024x1_0_1 : S64x1024.BroadcastsInDim S64x1024x1 (![0, 1] : Fin 2 → Fin S64x1024x1.rank)
  concatenates_S64x1024x6_S64x1024x1_S64x1024x1_S64x1024x8_d2 : Shape.Concatenates [S64x1024x6, S64x1024x1, S64x1024x1] S64x1024x8 2
  shapeCasts_S64x1024x8_S65536x8 : S64x1024x8.ShapeCasts S65536x8
  transposes_S256x8_S8x256_1_0 : S256x8.Transposes [1, 0] S8x256
  transposes_S256x256_S256x256_1_0 : S256x256.Transposes [1, 0] S256x256
  transposes_S6x256_S256x6_1_0 : S6x256.Transposes [1, 0] S256x6
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S256x8_S256x8_0_0 : ∀ a, (![0, 0] : Fin 2 → Nat) a + S256x8.size a ≤ S256x8.size a
  h_S256x8 : 0 < S256x8.numel
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S6x256_S6x256_0_0 : ∀ a, (![0, 0] : Fin 2 → Nat) a + S6x256.size a ≤ S6x256.size a
  h_S6x256 : 0 < S6x256.numel
  inb_S256x6_S256x6_0_0 : ∀ a, (![0, 0] : Fin 2 → Nat) a + S256x6.size a ≤ S256x6.size a
  h_S256x6 : 0 < S256x6.numel
  shapeCasts_S256x6_S256x6 : S256x6.ShapeCasts S256x6
  inb_S256_S256_0 : ∀ a, (![0] : Fin 1 → Nat) a + S256.size a ≤ S256.size a
  h_S256 : 0 < S256.numel
  inb_S6_S6_0 : ∀ a, (![0] : Fin 1 → Nat) a + S6.size a ≤ S6.size a
  h_S6 : 0 < S6.numel
  shapeCasts_S256_S1x256 : S256.ShapeCasts S1x256
  broadcasts_S1x256_S4096x256 : S1x256.Broadcasts S4096x256
  natLt_1_32 : 1 < 32
  bitsLt_bf16_f32 : FTy.bits .bf16 < FTy.bits .f32
  shapeCasts_S6_S1x6 : S6.ShapeCasts S1x6
  broadcasts_S1x6_S4096x6 : S1x6.Broadcasts S4096x6
  slices_S6x256_o0_0_S1x256 : S6x256.Slices ![0, 0] S1x256
  shapeCasts_S1x256_S256 : S1x256.ShapeCasts S256
  slices_S6x256_o1_0_S1x256 : S6x256.Slices ![1, 0] S1x256
  slices_S6x256_o2_0_S1x256 : S6x256.Slices ![2, 0] S1x256
  slices_S6x256_o3_0_S1x256 : S6x256.Slices ![3, 0] S1x256
  slices_S6x256_o4_0_S1x256 : S6x256.Slices ![4, 0] S1x256
  slices_S6x256_o5_0_S1x256 : S6x256.Slices ![5, 0] S1x256
  concatenates_S4096x8_S4096x8_S4096x8_S4096x8_S4096x8_S4096x8_S4096x48_d1 : Shape.Concatenates [S4096x8, S4096x8, S4096x8, S4096x8, S4096x8, S4096x8] S4096x48 1
  concatenates_S4096x6_S4096x48_S4096x54_d1 : Shape.Concatenates [S4096x6, S4096x48] S4096x54 1
  inb_S4096x54_S4096x54_0_0 : ∀ a, (![0, 0] : Fin 2 → Nat) a + S4096x54.size a ≤ S4096x54.size a
  h_S4096x54 : 0 < S4096x54.numel
  shapeCasts_S65536x54_S64x1024x54 : S65536x54.ShapeCasts S64x1024x54
  slices_S64x1024x54_S64x1024x6_0_0_0 : S64x1024x54.Slices ![0, 0, 0] S64x1024x6
  slices_S64x1024x54_S64x1024x48_0_0_6 : S64x1024x54.Slices ![0, 0, 6] S64x1024x48
  shapeCasts_S64x1024x48_S64x1024x6x8 : S64x1024x48.ShapeCasts S64x1024x6x8
  slices_S64x1024x6x8_S64x1024x6x6_0_0_0_0 : S64x1024x6x8.Slices ![0, 0, 0, 0] S64x1024x6x6
  slices_S64x1024x6x8_S64x1024x6x1_0_0_0_6 : S64x1024x6x8.Slices ![0, 0, 0, 6] S64x1024x6x1
  shapeCasts_S64x1024x6x1_S64x1024x6 : S64x1024x6x1.ShapeCasts S64x1024x6
  slices_S64x1024x6x8_S64x1024x6x1_0_0_0_7 : S64x1024x6x8.Slices ![0, 0, 0, 7] S64x1024x6x1
  dot_S4096x8_S8x256_S4096x256_1_0_0_1_n_n_wf : DotDims.WF S4096x8 S8x256 S4096x256 [1] [0] [0] [1] [] []
  dot_S4096x256_S256x256_S4096x256_1_0_0_1_n_n_wf : DotDims.WF S4096x256 S256x256 S4096x256 [1] [0] [0] [1] [] []
  dot_S4096x256_S256x6_S4096x6_1_0_0_1_n_n_wf : DotDims.WF S4096x256 S256x6 S4096x6 [1] [0] [0] [1] [] []
  dot_S4096x256_S256x8_S4096x8_1_0_0_1_n_n_wf : DotDims.WF S4096x256 S256x8 S4096x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S65536x8.size a
  hwx0_0 : ∀ i : grid0.Coords, EltTy.bits .f32 = 32 ∨ (Rect.block (s := S65536x8) S4096x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x8.size a ≤ S256x8.size a
  hwx0_1 : ∀ i : grid0.Coords, EltTy.bits .f32 = 32 ∨ (Rect.block (s := S256x8) S256x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x256.size a
  hwx0_2 : ∀ i : grid0.Coords, EltTy.bits .f32 = 32 ∨ (Rect.block (s := S8x256) S8x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x256.size a ≤ S6x256.size a
  hwx0_5 : ∀ i : grid0.Coords, EltTy.bits .f32 = 32 ∨ (Rect.block (s := S6x256) S6x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x6.size a ≤ S256x6.size a
  hwx0_6 : ∀ i : grid0.Coords, EltTy.bits .f32 = 32 ∨ (Rect.block (s := S256x6) S256x6.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S6.size a ≤ S6.size a
  hwx0_9 : ∀ i : grid0.Coords, EltTy.bits .f32 = 32 ∨ (Rect.block (s := S6) S6.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x54.size a ≤ S65536x54.size a
  hwx0_10 : ∀ i : grid0.Coords, EltTy.bits .f32 = 32 ∨ (Rect.block (s := S65536x54) S4096x54.size (cc0_transform_10 i) (hinb0_10 i)).WholeWords (EltTy.packing .f32)

variable [Facts₀]

def dot_S4096x8_S8x256_S4096x256_1_0_0_1_n_n : DotDims S4096x8 S8x256 S4096x256 where
  lhsContracting := [1]
  rhsContracting := [0]
  lhsNonContracting := [0]
  rhsNonContracting := [1]
  lhsBatch := []
  rhsBatch := []
  wf := dot_S4096x8_S8x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x6_S4096x6_1_0_0_1_n_n : DotDims S4096x256 S256x6 S4096x6 where
  lhsContracting := [1]
  rhsContracting := [0]
  lhsNonContracting := [0]
  rhsNonContracting := [1]
  lhsBatch := []
  rhsBatch := []
  wf := dot_S4096x256_S256x6_S4096x6_1_0_0_1_n_n_wf
def dot_S4096x256_S256x8_S4096x8_1_0_0_1_n_n : DotDims S4096x256 S256x8 S4096x8 where
  lhsContracting := [1]
  rhsContracting := [0]
  lhsNonContracting := [0]
  rhsNonContracting := [1]
  lhsBatch := []
  rhsBatch := []
  wf := dot_S4096x256_S256x8_S4096x8_1_0_0_1_n_n_wf

abbrev win0_0 : Pipeline.Window sig grid0 :=
  Pipeline.Window.ofSpec (Memref.whole main_v3) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S6x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x6.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S6.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S4096x54.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S64x1024 : Shape := ⟨2, ![64, 1024]⟩
abbrev S64x1024x6 : Shape := ⟨3, ![64, 1024, 6]⟩
abbrev S256x8 : Shape := ⟨2, ![256, 8]⟩
abbrev S256x256 : Shape := ⟨2, ![256, 256]⟩
abbrev S6x256 : Shape := ⟨2, ![6, 256]⟩
abbrev S256 : Shape := ⟨1, ![256]⟩
abbrev S6 : Shape := ⟨1, ![6]⟩
abbrev S64x1024x1 : Shape := ⟨3, ![64, 1024, 1]⟩
abbrev S64x1024x8 : Shape := ⟨3, ![64, 1024, 8]⟩
abbrev S64x1024x256 : Shape := ⟨3, ![64, 1024, 256]⟩
abbrev S1x1x256 : Shape := ⟨3, ![1, 1, 256]⟩
abbrev S_ : Shape := ⟨0, ![]⟩
abbrev S1x1x6 : Shape := ⟨3, ![1, 1, 6]⟩
abbrev S64x1024x1x256 : Shape := ⟨4, ![64, 1024, 1, 256]⟩
abbrev S1x1x6x256 : Shape := ⟨4, ![1, 1, 6, 256]⟩
abbrev S64x1024x6x256 : Shape := ⟨4, ![64, 1024, 6, 256]⟩
abbrev S64x1024x6x8 : Shape := ⟨4, ![64, 1024, 6, 8]⟩
abbrev S64x1024x6x6 : Shape := ⟨4, ![64, 1024, 6, 6]⟩
abbrev S64x1024x6x1 : Shape := ⟨4, ![64, 1024, 6, 1]⟩

abbrev nBuf : Space → Nat
  | .hbm => 54
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x1024x6, .f32⟩
  | .hbm, ⟨2, _⟩ => ⟨S64x1024, .f32⟩
  | .hbm, ⟨3, _⟩ => ⟨S64x1024, .f32⟩
  | .hbm, ⟨4, _⟩ => ⟨S256x8, .f32⟩
  | .hbm, ⟨5, _⟩ => ⟨S256x256, .f32⟩
  | .hbm, ⟨6, _⟩ => ⟨S6x256, .f32⟩
  | .hbm, ⟨7, _⟩ => ⟨S256, .f32⟩
  | .hbm, ⟨8, _⟩ => ⟨S256, .f32⟩
  | .hbm, ⟨9, _⟩ => ⟨S6, .f32⟩
  | .hbm, ⟨10, _⟩ => ⟨S64x1024x1, .f32⟩
  | .hbm, ⟨11, _⟩ => ⟨S64x1024x1, .f32⟩
  | .hbm, ⟨12, _⟩ => ⟨S64x1024x8, .f32⟩
  | .hbm, ⟨13, _⟩ => ⟨S64x1024x256, .f32⟩
  | .hbm, ⟨14, _⟩ => ⟨S1x1x256, .f32⟩
  | .hbm, ⟨15, _⟩ => ⟨S64x1024x256, .f32⟩
  | .hbm, ⟨16, _⟩ => ⟨S64x1024x256, .f32⟩
  | .hbm, ⟨17, _⟩ => ⟨S_, .f32⟩
  | .hbm, ⟨18, _⟩ => ⟨S64x1024x256, .f32⟩
  | .hbm, ⟨19, _⟩ => ⟨S64x1024x256, .f32⟩
  | .hbm, ⟨20, _⟩ => ⟨S64x1024x256, .f32⟩
  | .hbm, ⟨21, _⟩ => ⟨S1x1x256, .f32⟩
  | .hbm, ⟨22, _⟩ => ⟨S64x1024x256, .f32⟩
  | .hbm, ⟨23, _⟩ => ⟨S64x1024x256, .f32⟩
  | .hbm, ⟨24, _⟩ => ⟨S_, .f32⟩
  | .hbm, ⟨25, _⟩ => ⟨S64x1024x256, .f32⟩
  | .hbm, ⟨26, _⟩ => ⟨S64x1024x256, .f32⟩
  | .hbm, ⟨27, _⟩ => ⟨S64x1024x6, .f32⟩
  | .hbm, ⟨28, _⟩ => ⟨S1x1x6, .f32⟩
  | .hbm, ⟨29, _⟩ => ⟨S64x1024x6, .f32⟩
  | .hbm, ⟨30, _⟩ => ⟨S64x1024x6, .f32⟩
  | .hbm, ⟨31, _⟩ => ⟨S_, .f32⟩
  | .hbm, ⟨32, _⟩ => ⟨S64x1024x256, .f32⟩
  | .hbm, ⟨33, _⟩ => ⟨S64x1024x256, .i1⟩
  | .hbm, ⟨34, _⟩ => ⟨S64x1024x256, .f32⟩
  | .hbm, ⟨35, _⟩ => ⟨S_, .f32⟩
  | .hbm, ⟨36, _⟩ => ⟨S64x1024x256, .f32⟩
  | .hbm, ⟨37, _⟩ => ⟨S64x1024x256, .i1⟩
  | .hbm, ⟨38, _⟩ => ⟨S64x1024x256, .f32⟩
  | .hbm, ⟨39, _⟩ => ⟨S64x1024x1x256, .f32⟩
  | .hbm, ⟨40, _⟩ => ⟨S1x1x6x256, .f32⟩
  | .hbm, ⟨41, _⟩ => ⟨S64x1024x6x256, .f32⟩
  | .hbm, ⟨42, _⟩ => ⟨S64x1024x6x256, .f32⟩
  | .hbm, ⟨43, _⟩ => ⟨S64x1024x6x256, .f32⟩
  | .hbm, ⟨44, _⟩ => ⟨S64x1024x6x256, .f32⟩
  | .hbm, ⟨45, _⟩ => ⟨S64x1024x1x256, .f32⟩
  | .hbm, ⟨46, _⟩ => ⟨S64x1024x6x256, .f32⟩
  | .hbm, ⟨47, _⟩ => ⟨S64x1024x6x256, .f32⟩
  | .hbm, ⟨48, _⟩ => ⟨S64x1024x6x8, .f32⟩
  | .hbm, ⟨49, _⟩ => ⟨S64x1024x6x6, .f32⟩
  | .hbm, ⟨50, _⟩ => ⟨S64x1024x6x1, .f32⟩
  | .hbm, ⟨51, _⟩ => ⟨S64x1024x6, .f32⟩
  | .hbm, ⟨52, _⟩ => ⟨S64x1024x6x1, .f32⟩
  | .hbm, ⟨53, _⟩ => ⟨S64x1024x6, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_cst : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call1_cst : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S64x1024_S64x1024x1_0_1 : S64x1024.BroadcastsInDim S64x1024x1 (![0, 1] : Fin 2 → Fin S64x1024x1.rank)
  concatenates_S64x1024x6_S64x1024x1_S64x1024x1_S64x1024x8_d2 : Shape.Concatenates [S64x1024x6, S64x1024x1, S64x1024x1] S64x1024x8 2
  bcast_S256_S1x1x256_2 : S256.BroadcastsInDim S1x1x256 (![2] : Fin 1 → Fin S1x1x256.rank)
  bcast_S1x1x256_S64x1024x256_0_1_2 : S1x1x256.BroadcastsInDim S64x1024x256 (![0, 1, 2] : Fin 3 → Fin S64x1024x256.rank)
  bcast_S_S64x1024x256 : S_.BroadcastsInDim S64x1024x256 (![] : Fin 0 → Fin S64x1024x256.rank)
  bcast_S6_S1x1x6_2 : S6.BroadcastsInDim S1x1x6 (![2] : Fin 1 → Fin S1x1x6.rank)
  bcast_S1x1x6_S64x1024x6_0_1_2 : S1x1x6.BroadcastsInDim S64x1024x6 (![0, 1, 2] : Fin 3 → Fin S64x1024x6.rank)
  bcast_S64x1024x256_S64x1024x1x256_0_1_3 : S64x1024x256.BroadcastsInDim S64x1024x1x256 (![0, 1, 3] : Fin 3 → Fin S64x1024x1x256.rank)
  bcast_S6x256_S1x1x6x256_2_3 : S6x256.BroadcastsInDim S1x1x6x256 (![2, 3] : Fin 2 → Fin S1x1x6x256.rank)
  bcast_S1x1x6x256_S64x1024x6x256_0_1_2_3 : S1x1x6x256.BroadcastsInDim S64x1024x6x256 (![0, 1, 2, 3] : Fin 4 → Fin S64x1024x6x256.rank)
  bcast_S64x1024x1x256_S64x1024x6x256_0_1_2_3 : S64x1024x1x256.BroadcastsInDim S64x1024x6x256 (![0, 1, 2, 3] : Fin 4 → Fin S64x1024x6x256.rank)
  slices_S64x1024x6x8_S64x1024x6x6_0_0_0_0 : S64x1024x6x8.Slices ![0, 0, 0, 0] S64x1024x6x6
  slices_S64x1024x6x8_S64x1024x6x1_0_0_0_6 : S64x1024x6x8.Slices ![0, 0, 0, 6] S64x1024x6x1
  shapeCasts_S64x1024x6x1_S64x1024x6 : S64x1024x6x1.ShapeCasts S64x1024x6
  slices_S64x1024x6x8_S64x1024x6x1_0_0_0_7 : S64x1024x6x8.Slices ![0, 0, 0, 7] S64x1024x6x1
  dot_S64x1024x8_S256x8_S64x1024x256_2_1_01_0_n_n_wf : DotDims.WF S64x1024x8 S256x8 S64x1024x256 [2] [1] [0, 1] [0] [] []
  dot_S64x1024x256_S256x256_S64x1024x256_2_1_01_0_n_n_wf : DotDims.WF S64x1024x256 S256x256 S64x1024x256 [2] [1] [0, 1] [0] [] []
  dot_S64x1024x256_S6x256_S64x1024x6_2_1_01_0_n_n_wf : DotDims.WF S64x1024x256 S6x256 S64x1024x6 [2] [1] [0, 1] [0] [] []
  dot_S64x1024x6x256_S256x256_S64x1024x6x256_3_0_012_1_n_n_wf : DotDims.WF S64x1024x6x256 S256x256 S64x1024x6x256 [3] [0] [0, 1, 2] [1] [] []
  dot_S64x1024x6x256_S256x8_S64x1024x6x8_3_0_012_1_n_n_wf : DotDims.WF S64x1024x6x256 S256x8 S64x1024x6x8 [3] [0] [0, 1, 2] [1] [] []

variable [Facts₀]

def dot_S64x1024x8_S256x8_S64x1024x256_2_1_01_0_n_n : DotDims S64x1024x8 S256x8 S64x1024x256 where
  lhsContracting := [2]
  rhsContracting := [1]
  lhsNonContracting := [0, 1]
  rhsNonContracting := [0]
  lhsBatch := []
  rhsBatch := []
  wf := dot_S64x1024x8_S256x8_S64x1024x256_2_1_01_0_n_n_wf
def dot_S64x1024x256_S256x256_S64x1024x256_2_1_01_0_n_n : DotDims S64x1024x256 S256x256 S64x1024x256 where
  lhsContracting := [2]
  rhsContracting := [1]
  lhsNonContracting := [0, 1]
  rhsNonContracting := [0]
  lhsBatch := []
  rhsBatch := []
  wf := dot_S64x1024x256_S256x256_S64x1024x256_2_1_01_0_n_n_wf
def dot_S64x1024x256_S6x256_S64x1024x6_2_1_01_0_n_n : DotDims S64x1024x256 S6x256 S64x1024x6 where
  lhsContracting := [2]
  rhsContracting := [1]
  lhsNonContracting := [0, 1]
  rhsNonContracting := [0]
  lhsBatch := []
  rhsBatch := []
  wf := dot_S64x1024x256_S6x256_S64x1024x6_2_1_01_0_n_n_wf
def dot_S64x1024x6x256_S256x256_S64x1024x6x256_3_0_012_1_n_n : DotDims S64x1024x6x256 S256x256 S64x1024x6x256 where
  lhsContracting := [3]
  rhsContracting := [0]
  lhsNonContracting := [0, 1, 2]
  rhsNonContracting := [1]
  lhsBatch := []
  rhsBatch := []
  wf := dot_S64x1024x6x256_S256x256_S64x1024x6x256_3_0_012_1_n_n_wf
def dot_S64x1024x6x256_S256x8_S64x1024x6x8_3_0_012_1_n_n : DotDims S64x1024x6x256 S256x8 S64x1024x6x8 where
  lhsContracting := [3]
  rhsContracting := [0]
  lhsNonContracting := [0, 1, 2]
  rhsNonContracting := [1]
  lhsBatch := []
  rhsBatch := []
  wf := dot_S64x1024x6x256_S256x8_S64x1024x6x8_3_0_012_1_n_n_wf

class Facts : Prop extends Facts₀ where

variable [Facts]
-- ==== Proof.KernelFrame.lean ====
/-
  The frame of the kernel program, at any float instance: every weakly fair execution of @main terminates, nothing
  faults, and the ten argument arrays end as they were launched.

  @main is seven host operations (two broadcasts, the concatenation that lays the six entries of y and the two
  scalar inputs erate and T side by side as rows of eight features, a reshape to [65536, 8], three transposes), one pipelined
  region over sixteen grid points, and nine host operations that slice the region's [65536, 54] result.  The region
  stages eleven windows: the rows in blocks of 4096 (the block moves with the grid point), the nine parameter arrays
  whole (fetched once), and the result in blocks of 4096 rows written back at every point.  At a point the body loads
  the ten input blocks whole, loads the output block (and ignores it), and stores ONE value covering the output
  block: that value is the generated payloads composed, a function of the ten input blocks alone.
  So the proof data is: each input's staging buffer keeps its block; the output's holds that function of the input
  blocks; nothing else is touched.  The launch theorem then gives the run, with every array of the pipeline at what
  the write-backs leave and every other buffer as the trailing host operations leave it; the argument arrays are
  inputs (kept) or bypass the region and are written by no host operation.
-/
import proofs.«113584_j55155970015481_2_alg».proof.Proof.Gen.Kernel.Launch
import proofs.«113584_j55155970015481_2_alg».proof.Proof.Gen.Kernel.Skeleton
import proofs.«113584_j55155970015481_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch memory after the seven leading host operations. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the leading host operations, the region, and the trailing host operations continuing it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The trailing operations touch unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array the region stages: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The argument arrays are written by no host operation -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetches it or not
(an unfetched window's block index has not moved since it was fetched). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim from the frame run -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).1 1).trans (((dats 0 c).arrAt_in 1 rfl _).trans ((hA c 1).trans (V_main_arg4 m c))),
      ((h c).1 3).trans (((dats 0 c).arrAt_in 3 rfl _).trans ((hA c 3).trans (V_main_arg5 m c))),
      ((h c).1 5).trans (((dats 0 c).arrAt_in 5 rfl _).trans ((hA c 5).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c)))⟩) h

/-! ## The body's accesses: every window's block whole -/

abbrev r0_0 : Rect S4096x8 := Rect.unit (s := S4096x8) ![0, 0] S4096x8.size inb_S4096x8_S4096x8_0_0
abbrev r0_1 : Rect S256x8 := Rect.unit (s := S256x8) ![0, 0] S256x8.size inb_S256x8_S256x8_0_0
abbrev r0_2 : Rect S8x256 := Rect.unit (s := S8x256) ![0, 0] S8x256.size inb_S8x256_S8x256_0_0
abbrev r0_3 : Rect S256x256 := Rect.unit (s := S256x256) ![0, 0] S256x256.size inb_S256x256_S256x256_0_0
abbrev r0_4 : Rect S256x256 := Rect.unit (s := S256x256) ![0, 0] S256x256.size inb_S256x256_S256x256_0_0
abbrev r0_5 : Rect S6x256 := Rect.unit (s := S6x256) ![0, 0] S6x256.size inb_S6x256_S6x256_0_0
abbrev r0_6 : Rect S256x6 := Rect.unit (s := S256x6) ![0, 0] S256x6.size inb_S256x6_S256x6_0_0
abbrev r0_7 : Rect S256 := Rect.unit (s := S256) ![0] S256.size inb_S256_S256_0
abbrev r0_8 : Rect S256 := Rect.unit (s := S256) ![0] S256.size inb_S256_S256_0
abbrev r0_9 : Rect S6 := Rect.unit (s := S6) ![0] S6.size inb_S6_S6_0
abbrev r0_10 : Rect S4096x54 := Rect.unit (s := S4096x54) ![0, 0] S4096x54.size inb_S4096x54_S4096x54_0_0

/-! ## What the body leaves in the output window's buffer -/

/-- The output block after the body, from the ten input blocks: its one store, the payloads composed. -/
def out0_10 (x0 : Vec F S4096x8 .f32) (x1 : Vec F S256x8 .f32) (x2 : Vec F S8x256 .f32) (x3 : Vec F S256x256 .f32) (x4 : Vec F S256x256 .f32) (x5 : Vec F S6x256 .f32) (x6 : Vec F S256x6 .f32) (x7 : Vec F S256 .f32) (x8 : Vec F S256 .f32) (x9 : Vec F S6 .f32) : Vec F S4096x54 .f32 :=
  View.canon [⟨r0_10, k0_pay1 (View.ld x1 r0_1) (k0_pay3 (View.ld x0 r0_0) (View.ld x2 r0_2) (View.ld x7 r0_7)) (k0_pay5 (View.ld x0 r0_0) (View.ld x2 r0_2) (View.ld x4 r0_4) (View.ld x7 r0_7) (View.ld x8 r0_8)) (k0_pay8 (k0_pay6 (View.ld x0 r0_0) (View.ld x2 r0_2) (View.ld x4 r0_4) (View.ld x6 r0_6) (View.ld x7 r0_7) (View.ld x8 r0_8)) (k0_pay7 (View.ld x9 r0_9))) (k0_pay9 (View.ld x3 r0_3))
      (k0_pay10 (View.ld x1 r0_1) (View.ld x3 r0_3) (View.ld x5 r0_5) (k0_pay3 (View.ld x0 r0_0) (View.ld x2 r0_2) (View.ld x7 r0_7)) (k0_pay5 (View.ld x0 r0_0) (View.ld x2 r0_2) (View.ld x4 r0_4) (View.ld x7 r0_7) (View.ld x8 r0_8))) (k0_pay11 (View.ld x1 r0_1) (View.ld x3 r0_3) (View.ld x5 r0_5) (k0_pay3 (View.ld x0 r0_0) (View.ld x2 r0_2) (View.ld x7 r0_7)) (k0_pay5 (View.ld x0 r0_0) (View.ld x2 r0_2) (View.ld x4 r0_4) (View.ld x7 r0_7) (View.ld x8 r0_8)))
      (k0_pay12 (View.ld x1 r0_1) (View.ld x3 r0_3) (View.ld x5 r0_5) (k0_pay3 (View.ld x0 r0_0) (View.ld x2 r0_2) (View.ld x7 r0_7)) (k0_pay5 (View.ld x0 r0_0) (View.ld x2 r0_2) (View.ld x4 r0_4) (View.ld x7 r0_7) (View.ld x8 r0_8))) (k0_pay13 (View.ld x1 r0_1) (View.ld x3 r0_3) (View.ld x5 r0_5) (k0_pay3 (View.ld x0 r0_0) (View.ld x2 r0_2) (View.ld x7 r0_7)) (k0_pay5 (View.ld x0 r0_0) (View.ld x2 r0_2) (View.ld x4 r0_4) (View.ld x7 r0_7) (View.ld x8 r0_8)))
      (k0_pay14 (View.ld x1 r0_1) (View.ld x3 r0_3) (View.ld x5 r0_5) (k0_pay3 (View.ld x0 r0_0) (View.ld x2 r0_2) (View.ld x7 r0_7)) (k0_pay5 (View.ld x0 r0_0) (View.ld x2 r0_2) (View.ld x4 r0_4) (View.ld x7 r0_7) (View.ld x8 r0_8))) (k0_pay15 (View.ld x5 r0_5))⟩]

/-- The one store covers the block. -/
theorem cover0_10 (p0 : Vec F S4096x54 .f32) (y : S4096x54.Idx) :
    ∃ pc ∈ ([⟨r0_10, p0⟩] : List (View.Piece (Elt F) S4096x54 .f32)), y ∈ pc.1.set :=
  View.cover_of_tiled [⟨r0_10, p0⟩] S4096x54.size (by rfl) y

/-! ## The body's triple -/

set_option maxHeartbeats 4000000 in
/-- The body on whole staging buffers, the inputs' at contents `xW` and the output's at anything, runs to the
    continuation with the inputs' as they were and the output's at `out0_10` of them. -/
theorem sound_kernel (c : Dev nD) (E : Set ℕ) (i : grid0.Coords) (arg1 : Memref sig .tc .vmem S4096x8 .f32) (harg1 : arg1.IsWhole) (arg2 : Memref sig .tc .vmem S256x8 .f32) (harg2 : arg2.IsWhole) (arg3 : Memref sig .tc .vmem S8x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S6x256 .f32) (harg6 : arg6.IsWhole) (arg7 : Memref sig .tc .vmem S256x6 .f32) (harg7 : arg7.IsWhole) (arg8 : Memref sig .tc .vmem S256 .f32) (harg8 : arg8.IsWhole) (arg9 : Memref sig .tc .vmem S256 .f32) (harg9 : arg9.IsWhole) (arg10 : Memref sig .tc .vmem S6 .f32) (harg10 : arg10.IsWhole) (arg11 : Memref sig .tc .vmem S4096x54 .f32) (harg11 : arg11.IsWhole)
    (x0 : Vec F S4096x8 .f32) (x1 : Vec F S256x8 .f32) (x2 : Vec F S8x256 .f32) (x3 : Vec F S256x256 .f32) (x4 : Vec F S256x256 .f32) (x5 : Vec F S6x256 .f32) (x6 : Vec F S256x6 .f32) (x7 : Vec F S256 .f32) (x8 : Vec F S256 .f32) (x9 : Vec F S6 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__mlp_jac_kernel i arg1 harg1 arg2 harg2 arg3 harg3 arg4 harg4 arg5 harg5 arg6 harg6 arg7 harg7 arg8 harg8 arg9 harg9 arg10 harg10 arg11 harg11) K := by
  simp only [cc0__mlp_jac_kernel_eq_skeleton]; unfold cc0__mlp_jac_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover0_10 _)

/-! ## The pipeline's proof data -/

/-- Each input's buffer keeps its block, the output's holds `out0_10` of the input blocks; the invariant is the
    untouched rest; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the write-backs leave
    and every other unscoped buffer as the trailing host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Hand

end
-- ==== Proof.KernelIdealFrame.lean ====
/-
  The frame of the kernel program, at any float instance: every weakly fair execution of @main terminates, nothing
  faults, and the ten argument arrays end as they were launched.

  @main is seven host operations (two broadcasts, the concatenation that lays the six entries of y and the two
  scalar inputs erate and T side by side as rows of eight features, a reshape to [65536, 8], three transposes), one pipelined
  region over sixteen grid points, and nine host operations that slice the region's [65536, 54] result.  The region
  stages eleven windows: the rows in blocks of 4096 (the block moves with the grid point), the nine parameter arrays
  whole (fetched once), and the result in blocks of 4096 rows written back at every point.  At a point the body loads
  the ten input blocks whole, loads the output block (and ignores it), and stores ONE value covering the output
  block: that value is the generated payloads composed, a function of the ten input blocks alone.
  So the proof data is: each input's staging buffer keeps its block; the output's holds that function of the input
  blocks; nothing else is touched.  The launch theorem then gives the run, with every array of the pipeline at what
  the write-backs leave and every other buffer as the trailing host operations leave it; the argument arrays are
  inputs (kept) or bypass the region and are written by no host operation.
-/
import proofs.«113584_j55155970015481_2_alg».proof.Proof.Gen.KernelIdeal.Launch
import proofs.«113584_j55155970015481_2_alg».proof.Proof.Gen.KernelIdeal.Skeleton
import proofs.«113584_j55155970015481_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch memory after the seven leading host operations. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the leading host operations, the region, and the trailing host operations continuing it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The trailing operations touch unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array the region stages: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The argument arrays are written by no host operation -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetches it or not
(an unfetched window's block index has not moved since it was fetched). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim from the frame run -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).1 1).trans (((dats 0 c).arrAt_in 1 rfl _).trans ((hA c 1).trans (V_main_arg4 m c))),
      ((h c).1 3).trans (((dats 0 c).arrAt_in 3 rfl _).trans ((hA c 3).trans (V_main_arg5 m c))),
      ((h c).1 5).trans (((dats 0 c).arrAt_in 5 rfl _).trans ((hA c 5).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c)))⟩) h

/-! ## The body's accesses: every window's block whole -/

abbrev r0_0 : Rect S4096x8 := Rect.unit (s := S4096x8) ![0, 0] S4096x8.size inb_S4096x8_S4096x8_0_0
abbrev r0_1 : Rect S256x8 := Rect.unit (s := S256x8) ![0, 0] S256x8.size inb_S256x8_S256x8_0_0
abbrev r0_2 : Rect S8x256 := Rect.unit (s := S8x256) ![0, 0] S8x256.size inb_S8x256_S8x256_0_0
abbrev r0_3 : Rect S256x256 := Rect.unit (s := S256x256) ![0, 0] S256x256.size inb_S256x256_S256x256_0_0
abbrev r0_4 : Rect S256x256 := Rect.unit (s := S256x256) ![0, 0] S256x256.size inb_S256x256_S256x256_0_0
abbrev r0_5 : Rect S6x256 := Rect.unit (s := S6x256) ![0, 0] S6x256.size inb_S6x256_S6x256_0_0
abbrev r0_6 : Rect S256x6 := Rect.unit (s := S256x6) ![0, 0] S256x6.size inb_S256x6_S256x6_0_0
abbrev r0_7 : Rect S256 := Rect.unit (s := S256) ![0] S256.size inb_S256_S256_0
abbrev r0_8 : Rect S256 := Rect.unit (s := S256) ![0] S256.size inb_S256_S256_0
abbrev r0_9 : Rect S6 := Rect.unit (s := S6) ![0] S6.size inb_S6_S6_0
abbrev r0_10 : Rect S4096x54 := Rect.unit (s := S4096x54) ![0, 0] S4096x54.size inb_S4096x54_S4096x54_0_0

/-! ## What the body leaves in the output window's buffer -/

/-- The output block after the body, from the ten input blocks: its one store, the payloads composed. -/
def out0_10 (x0 : Vec F S4096x8 .f32) (x1 : Vec F S256x8 .f32) (x2 : Vec F S8x256 .f32) (x3 : Vec F S256x256 .f32) (x4 : Vec F S256x256 .f32) (x5 : Vec F S6x256 .f32) (x6 : Vec F S256x6 .f32) (x7 : Vec F S256 .f32) (x8 : Vec F S256 .f32) (x9 : Vec F S6 .f32) : Vec F S4096x54 .f32 :=
  View.canon [⟨r0_10, k0_pay1 (View.ld x1 r0_1) (k0_pay3 (View.ld x0 r0_0) (View.ld x2 r0_2) (View.ld x7 r0_7)) (k0_pay5 (View.ld x0 r0_0) (View.ld x2 r0_2) (View.ld x4 r0_4) (View.ld x7 r0_7) (View.ld x8 r0_8)) (k0_pay8 (k0_pay6 (View.ld x0 r0_0) (View.ld x2 r0_2) (View.ld x4 r0_4) (View.ld x6 r0_6) (View.ld x7 r0_7) (View.ld x8 r0_8)) (k0_pay7 (View.ld x9 r0_9))) (k0_pay9 (View.ld x3 r0_3))
      (k0_pay10 (View.ld x1 r0_1) (View.ld x3 r0_3) (View.ld x5 r0_5) (k0_pay3 (View.ld x0 r0_0) (View.ld x2 r0_2) (View.ld x7 r0_7)) (k0_pay5 (View.ld x0 r0_0) (View.ld x2 r0_2) (View.ld x4 r0_4) (View.ld x7 r0_7) (View.ld x8 r0_8))) (k0_pay11 (View.ld x1 r0_1) (View.ld x3 r0_3) (View.ld x5 r0_5) (k0_pay3 (View.ld x0 r0_0) (View.ld x2 r0_2) (View.ld x7 r0_7)) (k0_pay5 (View.ld x0 r0_0) (View.ld x2 r0_2) (View.ld x4 r0_4) (View.ld x7 r0_7) (View.ld x8 r0_8)))
      (k0_pay12 (View.ld x1 r0_1) (View.ld x3 r0_3) (View.ld x5 r0_5) (k0_pay3 (View.ld x0 r0_0) (View.ld x2 r0_2) (View.ld x7 r0_7)) (k0_pay5 (View.ld x0 r0_0) (View.ld x2 r0_2) (View.ld x4 r0_4) (View.ld x7 r0_7) (View.ld x8 r0_8))) (k0_pay13 (View.ld x1 r0_1) (View.ld x3 r0_3) (View.ld x5 r0_5) (k0_pay3 (View.ld x0 r0_0) (View.ld x2 r0_2) (View.ld x7 r0_7)) (k0_pay5 (View.ld x0 r0_0) (View.ld x2 r0_2) (View.ld x4 r0_4) (View.ld x7 r0_7) (View.ld x8 r0_8)))
      (k0_pay14 (View.ld x1 r0_1) (View.ld x3 r0_3) (View.ld x5 r0_5) (k0_pay3 (View.ld x0 r0_0) (View.ld x2 r0_2) (View.ld x7 r0_7)) (k0_pay5 (View.ld x0 r0_0) (View.ld x2 r0_2) (View.ld x4 r0_4) (View.ld x7 r0_7) (View.ld x8 r0_8))) (k0_pay15 (View.ld x5 r0_5))⟩]

/-- The one store covers the block. -/
theorem cover0_10 (p0 : Vec F S4096x54 .f32) (y : S4096x54.Idx) :
    ∃ pc ∈ ([⟨r0_10, p0⟩] : List (View.Piece (Elt F) S4096x54 .f32)), y ∈ pc.1.set :=
  View.cover_of_tiled [⟨r0_10, p0⟩] S4096x54.size (by rfl) y

/-! ## The body's triple -/

set_option maxHeartbeats 4000000 in
/-- The body on whole staging buffers, the inputs' at contents `xW` and the output's at anything, runs to the
    continuation with the inputs' as they were and the output's at `out0_10` of them. -/
theorem sound_kernel (c : Dev nD) (E : Set ℕ) (i : grid0.Coords) (arg1 : Memref sig .tc .vmem S4096x8 .f32) (harg1 : arg1.IsWhole) (arg2 : Memref sig .tc .vmem S256x8 .f32) (harg2 : arg2.IsWhole) (arg3 : Memref sig .tc .vmem S8x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S6x256 .f32) (harg6 : arg6.IsWhole) (arg7 : Memref sig .tc .vmem S256x6 .f32) (harg7 : arg7.IsWhole) (arg8 : Memref sig .tc .vmem S256 .f32) (harg8 : arg8.IsWhole) (arg9 : Memref sig .tc .vmem S256 .f32) (harg9 : arg9.IsWhole) (arg10 : Memref sig .tc .vmem S6 .f32) (harg10 : arg10.IsWhole) (arg11 : Memref sig .tc .vmem S4096x54 .f32) (harg11 : arg11.IsWhole)
    (x0 : Vec F S4096x8 .f32) (x1 : Vec F S256x8 .f32) (x2 : Vec F S8x256 .f32) (x3 : Vec F S256x256 .f32) (x4 : Vec F S256x256 .f32) (x5 : Vec F S6x256 .f32) (x6 : Vec F S256x6 .f32) (x7 : Vec F S256 .f32) (x8 : Vec F S256 .f32) (x9 : Vec F S6 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__mlp_jac_kernel i arg1 harg1 arg2 harg2 arg3 harg3 arg4 harg4 arg5 harg5 arg6 harg6 arg7 harg7 arg8 harg8 arg9 harg9 arg10 harg10 arg11 harg11) K := by
  simp only [cc0__mlp_jac_kernel_eq_skeleton]; unfold cc0__mlp_jac_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover0_10 _)

/-! ## The pipeline's proof data -/

/-- Each input's buffer keeps its block, the output's holds `out0_10` of the input blocks; the invariant is the
    untouched rest; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the write-backs leave
    and every other unscoped buffer as the trailing host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Hand

end
-- ==== Proof.Body.lean ====
/-
  What the kernel body stores into its output block, as ONE function of the ten input blocks it loads
  (the rows block, W₁, W₁ᵀ, W₂, W₂ᵀ, W₃, W₃ᵀ, b₁, b₂, b₃): the generated payloads composed in the order the
  body computes them — the two masks, the output ẏ, the six Jacobian rows, the two concatenations.
-/
import proofs.«113584_j55155970015481_2_alg».proof.Proof.Gen.KernelIdeal.Skeleton

noncomputable section

namespace Cert.KernelIdeal.Hand

open Idealize.ShloMosaic Cert.KernelIdeal Cert.KernelIdeal.Gen

variable {F : FTy → Type} [FloatOps F]

/-- The 4096 × 54 block the body stores: row `p` is ẏ followed by the Jacobian of row `p` of the input block. -/
def bodyVal (x0 : Vec F S4096x8 .f32) (x1 : Vec F S256x8 .f32) (x2 : Vec F S8x256 .f32) (x3 : Vec F S256x256 .f32)
    (x4 : Vec F S256x256 .f32) (x5 : Vec F S6x256 .f32) (x6 : Vec F S256x6 .f32) (x7 : Vec F S256 .f32)
    (x8 : Vec F S256 .f32) (x9 : Vec F S6 .f32) : FVec F S4096x54 .f32 :=
  k0_pay1 x1 (k0_pay3 x0 x2 x7) (k0_pay5 x0 x2 x4 x7 x8) (k0_pay8 (k0_pay6 x0 x2 x4 x6 x7 x8) (k0_pay7 x9)) (k0_pay9 x3)
    (k0_pay10 x1 x3 x5 (k0_pay3 x0 x2 x7) (k0_pay5 x0 x2 x4 x7 x8)) (k0_pay11 x1 x3 x5 (k0_pay3 x0 x2 x7) (k0_pay5 x0 x2 x4 x7 x8))
    (k0_pay12 x1 x3 x5 (k0_pay3 x0 x2 x7) (k0_pay5 x0 x2 x4 x7 x8)) (k0_pay13 x1 x3 x5 (k0_pay3 x0 x2 x7) (k0_pay5 x0 x2 x4 x7 x8))
    (k0_pay14 x1 x3 x5 (k0_pay3 x0 x2 x7) (k0_pay5 x0 x2 x4 x7 x8)) (k0_pay15 x5)

end Cert.KernelIdeal.Hand

end
-- ==== Proof.Spec.lean ====
/-
  The mathematics of the certificate, with no program in sight.

  One row of the model is a three-layer ReLU network on eight features together with its Jacobian:
    z₁ = W₁ x + b₁,  v₁ = relu z₁,  z₂ = W₂ v₁ + b₂,  v₂ = relu z₂,  ẏ = W₃ v₂ + b₃,
    J  = W₃ · diag(m₂) · W₂ · diag(m₁) · W₁,   mₗ = [zₗ > 0].
  The kernel computes relu z as z · [z > 0] and reads the forward weights through their transposes; the
  reference computes relu z as max z 0.  On the extended reals z · [z > 0] = max z 0 for EVERY z (an infinity
  times zero is zero there), so the two forms are one function: no finiteness is used.
  A row of the kernel's 54-wide output is ẏ (6 entries) followed by J row-major (6 × 8 entries).
-/
import Idealize.ShloMosaic.PureOps.Ideal
import Idealize.ShloMosaic.Lib.ValueIdx

noncomputable section

open scoped BigOperators

namespace Cert.MlpJac

open Idealize.ShloMosaic Idealize.ShloMosaic.ValueIdx

/-- The derivative of ReLU as a number: one where the argument is positive, zero elsewhere. -/
def mask (z : EReal) : EReal := if 0 < z then 1 else 0

/-- On the extended reals, multiplying by the ReLU mask is taking the maximum with zero. -/
theorem mul_mask (z : EReal) : z * mask z = max z 0 := by
  unfold mask
  by_cases h : 0 < z
  · rw [if_pos h, mul_one, max_eq_left h.le]
  · rw [if_neg h, mul_zero, max_eq_right (not_lt.mp h)]

section Row

variable (x : Fin 8 → EReal)
  (w1 : Fin 256 → Fin 8 → EReal) (w1T : Fin 8 → Fin 256 → EReal)
  (w2 : Fin 256 → Fin 256 → EReal) (w2T : Fin 256 → Fin 256 → EReal)
  (w3 : Fin 6 → Fin 256 → EReal) (w3T : Fin 256 → Fin 6 → EReal)
  (b1 b2 : Fin 256 → EReal) (b3 : Fin 6 → EReal)

/-! ### The kernel's form: forward weights read through their transposes, ReLU as a product with the mask -/

def z1K (h : Fin 256) : EReal := (∑ k : Fin 8, x k * w1T k h) + b1 h
def m1K (h : Fin 256) : EReal := mask (z1K x w1T b1 h)
def v1K (h : Fin 256) : EReal := z1K x w1T b1 h * m1K x w1T b1 h
def z2K (h : Fin 256) : EReal := (∑ k : Fin 256, v1K x w1T b1 k * w2T k h) + b2 h
def m2K (h : Fin 256) : EReal := mask (z2K x w1T w2T b1 b2 h)
def v2K (h : Fin 256) : EReal := z2K x w1T w2T b1 b2 h * m2K x w1T w2T b1 b2 h
/-- The network's output. -/
def ydotK (i : Fin 6) : EReal := (∑ k : Fin 256, v2K x w1T w2T b1 b2 k * w3T k i) + b3 i
/-- Row `i` of W₃ masked by the second layer. -/
def aK (i : Fin 6) (h : Fin 256) : EReal := w3 i h * m2K x w1T w2T b1 b2 h
/-- … pushed through W₂ and masked by the first layer. -/
def bK (i : Fin 6) (j : Fin 256) : EReal := (∑ h : Fin 256, aK x w1T w2T w3 b1 b2 i h * w2 h j) * m1K x w1T b1 j
/-- The Jacobian of output `i` with respect to feature `k`. -/
def jacK (i : Fin 6) (k : Fin 8) : EReal := ∑ h : Fin 256, bK x w1T w2 w2T w3 b1 b2 i h * w1 h k

/-! ### The reference's form: the weights as given, ReLU as a maximum -/

def z1R (h : Fin 256) : EReal := (∑ k : Fin 8, x k * w1 h k) + b1 h
def v1R (h : Fin 256) : EReal := max (z1R x w1 b1 h) 0
def z2R (h : Fin 256) : EReal := (∑ k : Fin 256, v1R x w1 b1 k * w2 h k) + b2 h
def v2R (h : Fin 256) : EReal := max (z2R x w1 w2 b1 b2 h) 0
def ydotR (i : Fin 6) : EReal := (∑ k : Fin 256, v2R x w1 w2 b1 b2 k * w3 i k) + b3 i
def m1R (h : Fin 256) : EReal := mask (z1R x w1 b1 h)
def m2R (h : Fin 256) : EReal := mask (z2R x w1 w2 b1 b2 h)
def aR (i : Fin 6) (h : Fin 256) : EReal := w3 i h * m2R x w1 w2 b1 b2 h
def bR (i : Fin 6) (j : Fin 256) : EReal := (∑ h : Fin 256, aR x w1 w2 w3 b1 b2 i h * w2 h j) * m1R x w1 b1 j
def jacR (i : Fin 6) (k : Fin 8) : EReal := ∑ h : Fin 256, bR x w1 w2 w3 b1 b2 i h * w1 h k

/-! ### The two forms are one function -/

theorem z1K_eq : z1K x (fun k h => w1 h k) b1 = z1R x w1 b1 := rfl

theorem v1K_eq : v1K x (fun k h => w1 h k) b1 = v1R x w1 b1 := by
  funext h; unfold v1K m1K v1R; rw [z1K_eq]; exact mul_mask _

theorem z2K_eq : z2K x (fun k h => w1 h k) (fun k h => w2 h k) b1 b2 = z2R x w1 w2 b1 b2 := by
  funext h; unfold z2K z2R; rw [v1K_eq]

theorem v2K_eq : v2K x (fun k h => w1 h k) (fun k h => w2 h k) b1 b2 = v2R x w1 w2 b1 b2 := by
  funext h; unfold v2K m2K v2R; rw [z2K_eq]; exact mul_mask _

theorem ydotK_eq :
    ydotK x (fun k h => w1 h k) (fun k h => w2 h k) (fun k i => w3 i k) b1 b2 b3 = ydotR x w1 w2 w3 b1 b2 b3 := by
  funext i; unfold ydotK ydotR; rw [v2K_eq]

theorem jacK_eq :
    jacK x w1 (fun k h => w1 h k) w2 (fun k h => w2 h k) w3 b1 b2 = jacR x w1 w2 w3 b1 b2 := by
  funext i k; unfold jacK jacR bK bR aK aR m1K m2K m1R m2R; rw [z1K_eq, z2K_eq]

end Row

/-! ### A row of the kernel's output: the six outputs, then the Jacobian row-major -/

/-- Column `j` of the 54-wide row. -/
def row54 (yd : Fin 6 → EReal) (jm : Fin 6 → Fin 8 → EReal) (j : Fin 54) : EReal :=
  if h : j.val < 6 then yd ⟨j.val, h⟩
  else jm ⟨(j.val - 6) / 8, by have := j.isLt; omega⟩ ⟨(j.val - 6) % 8, Nat.mod_lt _ (by decide)⟩

theorem row54_left (yd : Fin 6 → EReal) (jm : Fin 6 → Fin 8 → EReal) (i : Fin 6) (hi : i.val < 54) :
    row54 yd jm ⟨i.val, hi⟩ = yd i := by
  unfold row54; rw [dif_pos i.isLt]

theorem row54_right (yd : Fin 6 → EReal) (jm : Fin 6 → Fin 8 → EReal) (i : Fin 6) (k : Fin 8)
    (hj : 6 + (8 * i.val + k.val) < 54) :
    row54 yd jm ⟨6 + (8 * i.val + k.val), hj⟩ = jm i k := by
  unfold row54
  rw [dif_neg (by simp)]
  have h1 : (6 + (8 * i.val + k.val) - 6) / 8 = i.val := by have := k.isLt; omega
  have h2 : (6 + (8 * i.val + k.val) - 6) % 8 = k.val := by have := k.isLt; omega
  congr 1
  · exact Fin.ext h1
  · exact Fin.ext h2

/-! ### The four results as arrays, from the argument arrays

`XC` is the [64, 1024, 8] array of input rows (the six entries of y, then erate, then T, side by side);
`W1 … B3` the parameter arrays. -/

section Results

variable (XC : (⟨3, ![64, 1024, 8]⟩ : Shape).Idx → EReal)
  (W1 : (⟨2, ![256, 8]⟩ : Shape).Idx → EReal) (W2 : (⟨2, ![256, 256]⟩ : Shape).Idx → EReal)
  (W3 : (⟨2, ![6, 256]⟩ : Shape).Idx → EReal)
  (B1 B2 : (⟨1, ![256]⟩ : Shape).Idx → EReal) (B3 : (⟨1, ![6]⟩ : Shape).Idx → EReal)

/-- Row `(a, b)` of the input. -/
def xrow (a : Fin 64) (b : Fin 1024) : Fin 8 → EReal := fun k => XC (ix3 a b k)
def w1f : Fin 256 → Fin 8 → EReal := fun h k => W1 (ix2 h k)
def w2f : Fin 256 → Fin 256 → EReal := fun h k => W2 (ix2 h k)
def w3f : Fin 6 → Fin 256 → EReal := fun i h => W3 (ix2 i h)
def b1f : Fin 256 → EReal := fun h => B1 (ix1 h)
def b3f : Fin 6 → EReal := fun i => B3 (ix1 i)

/-- The network's output at row `(a, b)`, entry `i`. -/
def ydotAt (a : Fin 64) (b : Fin 1024) (i : Fin 6) : EReal :=
  ydotR (xrow XC a b) (w1f W1) (w2f W2) (w3f W3) (b1f B1) (b1f B2) (b3f B3) i
/-- Its Jacobian at row `(a, b)`: output `i` by feature `k`. -/
def jacAt (a : Fin 64) (b : Fin 1024) (i : Fin 6) (k : Fin 8) : EReal :=
  jacR (xrow XC a b) (w1f W1) (w2f W2) (w3f W3) (b1f B1) (b1f B2) i k

/-- Result 0: the output, [64, 1024, 6]. -/
def res0 : (⟨3, ![64, 1024, 6]⟩ : Shape).Idx → EReal := fun j => ydotAt XC W1 W2 W3 B1 B2 B3 (j 0) (j 1) (j 2)
/-- Result 1: the Jacobian with respect to the first six features (the entries of y), [64, 1024, 6, 6]. -/
def res1 : (⟨4, ![64, 1024, 6, 6]⟩ : Shape).Idx → EReal := fun j =>
  jacAt XC W1 W2 W3 B1 B2 (j 0) (j 1) (j 2) (Fin.castLE (by decide) (j 3 : Fin 6))
/-- Result 2: the Jacobian with respect to feature 6 (erate), [64, 1024, 6]. -/
def res2 : (⟨3, ![64, 1024, 6]⟩ : Shape).Idx → EReal := fun j => jacAt XC W1 W2 W3 B1 B2 (j 0) (j 1) (j 2) 6
/-- Result 3: the Jacobian with respect to feature 7 (T), [64, 1024, 6]. -/
def res3 : (⟨3, ![64, 1024, 6]⟩ : Shape).Idx → EReal := fun j => jacAt XC W1 W2 W3 B1 B2 (j 0) (j 1) (j 2) 7

theorem res0_apply (a : Fin 64) (b : Fin 1024) (i : Fin 6) :
    res0 XC W1 W2 W3 B1 B2 B3 (ix3 a b i) = ydotAt XC W1 W2 W3 B1 B2 B3 a b i := rfl
theorem res1_apply (a : Fin 64) (b : Fin 1024) (i : Fin 6) (k : Fin 6) :
    res1 XC W1 W2 W3 B1 B2 (ix4 a b i k) = jacAt XC W1 W2 W3 B1 B2 a b i (Fin.castLE (by decide) k) := rfl
theorem res2_apply (a : Fin 64) (b : Fin 1024) (i : Fin 6) :
    res2 XC W1 W2 W3 B1 B2 (ix3 a b i) = jacAt XC W1 W2 W3 B1 B2 a b i 6 := rfl
theorem res3_apply (a : Fin 64) (b : Fin 1024) (i : Fin 6) :
    res3 XC W1 W2 W3 B1 B2 (ix3 a b i) = jacAt XC W1 W2 W3 B1 B2 a b i 7 := rfl

end Results

end Cert.MlpJac

end
-- ==== Proof.PayloadOps.lean ====
/-
  The non-pointwise operations of the kernel body read at one entry, at the ideal values:
  a plain [M, K] x [K, N] product into a zero accumulator is the sum of the K products (one lemma per pair of
  shapes the body multiplies), a vector laid as one row and repeated down the rows reads the vector at the column,
  a row cut out of a matrix and flattened and laid as a row again reads the matrix at that row, and the
  comparison "z > 0" widened to an integer and converted to a float is the number 1 or 0.
-/
import proofs.«113584_j55155970015481_2_alg».proof.Proof.Gen.KernelIdeal.Skeleton
import proofs.«113584_j55155970015481_2_alg».proof.Proof.Spec
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-! ### Rows times the first layer's transposed weights: [4096, 8] x [8, 256] -/

theorem mmXW1_l0 (i : S4096x256.Idx) (q : dot_S4096x8_S8x256_S4096x256_1_0_0_1_n_n.contr.Idx) : (dot_S4096x8_S8x256_S4096x256_1_0_0_1_n_n.lhsIdx i q 0).val = (i 0).val := by
  unfold DotDims.lhsIdx
  rw [dif_neg (show ¬(0 : Fin S4096x8.rank) ∈ dot_S4096x8_S8x256_S4096x256_1_0_0_1_n_n.lhsBatch by decide), dif_pos (show (0 : Fin S4096x8.rank) ∈ dot_S4096x8_S8x256_S4096x256_1_0_0_1_n_n.lhsNonContracting by decide)]
  rfl
theorem mmXW1_l1 (i : S4096x256.Idx) (q : dot_S4096x8_S8x256_S4096x256_1_0_0_1_n_n.contr.Idx) : (dot_S4096x8_S8x256_S4096x256_1_0_0_1_n_n.lhsIdx i q 1).val = (q ⟨0, by decide⟩).val :=
  dot_S4096x8_S8x256_S4096x256_1_0_0_1_n_n.lhsIdx_val_of_single rfl i q
theorem mmXW1_r0 (i : S4096x256.Idx) (q : dot_S4096x8_S8x256_S4096x256_1_0_0_1_n_n.contr.Idx) : (dot_S4096x8_S8x256_S4096x256_1_0_0_1_n_n.rhsIdx i q 0).val = (q ⟨0, by decide⟩).val :=
  dot_S4096x8_S8x256_S4096x256_1_0_0_1_n_n.rhsIdx_val_of_single rfl i q
theorem mmXW1_r1 (i : S4096x256.Idx) (q : dot_S4096x8_S8x256_S4096x256_1_0_0_1_n_n.contr.Idx) : (dot_S4096x8_S8x256_S4096x256_1_0_0_1_n_n.rhsIdx i q 1).val = (i 1).val := by
  unfold DotDims.rhsIdx
  rw [dif_neg (show ¬(1 : Fin S8x256.rank) ∈ dot_S4096x8_S8x256_S4096x256_1_0_0_1_n_n.rhsBatch by decide), dif_pos (show (1 : Fin S8x256.rank) ∈ dot_S4096x8_S8x256_S4096x256_1_0_0_1_n_n.rhsNonContracting by decide)]
  rfl

/-- Entry (p, c) of the product into a zero accumulator is the sum over the 8 contraction positions. -/
theorem mmXW1_apply {φ₁ φ₂ : FTy} (prec : Option ContractPrecision) (a : FVec Ideal S4096x8 φ₁) (b : FVec Ideal S8x256 φ₂)
    (p : Fin 4096) (c : Fin 256) :
    matmul dot_S4096x8_S8x256_S4096x256_1_0_0_1_n_n prec a b (constant (F := Ideal) S4096x256 .f32 0x00000000#32) (ix2 p c)
      = ∑ k : Fin 8, a (ix2 p k) * b (ix2 k c) := by
  refine (Ideal.matmul_constant_zero_apply dot_S4096x8_S8x256_S4096x256_1_0_0_1_n_n prec a b (ix2 p c)).trans ?_
  rw [← Equiv.sum_comp (contrEquiv1 dot_S4096x8_S8x256_S4096x256_1_0_0_1_n_n 8 rfl rfl).symm]
  refine Finset.sum_congr rfl fun k _ => ?_
  have hk := contrEquiv1_symm_val dot_S4096x8_S8x256_S4096x256_1_0_0_1_n_n 8 rfl rfl k
  have el : dot_S4096x8_S8x256_S4096x256_1_0_0_1_n_n.lhsIdx (ix2 p c) ((contrEquiv1 dot_S4096x8_S8x256_S4096x256_1_0_0_1_n_n 8 rfl rfl).symm k) = ix2 p k := funext fun ax => Fin.ext (by
    match ax with
    | ⟨0, _⟩ => exact mmXW1_l0 _ _
    | ⟨1, _⟩ => exact (mmXW1_l1 _ _).trans hk)
  have er : dot_S4096x8_S8x256_S4096x256_1_0_0_1_n_n.rhsIdx (ix2 p c) ((contrEquiv1 dot_S4096x8_S8x256_S4096x256_1_0_0_1_n_n 8 rfl rfl).symm k) = ix2 k c := funext fun ax => Fin.ext (by
    match ax with
    | ⟨0, _⟩ => exact (mmXW1_r0 _ _).trans hk
    | ⟨1, _⟩ => exact mmXW1_r1 _ _)
  rw [el, er]

/-! ### Hidden rows times a square weight matrix: [4096, 256] x [256, 256] -/

theorem mmHH_l0 (i : S4096x256.Idx) (q : dot_S4096x256_S256x256_S4096x256_1_0_0_1_n_n.contr.Idx) : (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem mmHH_l1 (i : S4096x256.Idx) (q : dot_S4096x256_S256x256_S4096x256_1_0_0_1_n_n.contr.Idx) : (dot_S4096x256_S256x256_S4096x256_1_0_0_1_n_n.lhsIdx i q 1).val = (q ⟨0, by decide⟩).val :=
  dot_S4096x256_S256x256_S4096x256_1_0_0_1_n_n.lhsIdx_val_of_single rfl i q
theorem mmHH_r0 (i : S4096x256.Idx) (q : dot_S4096x256_S256x256_S4096x256_1_0_0_1_n_n.contr.Idx) : (dot_S4096x256_S256x256_S4096x256_1_0_0_1_n_n.rhsIdx i q 0).val = (q ⟨0, by decide⟩).val :=
  dot_S4096x256_S256x256_S4096x256_1_0_0_1_n_n.rhsIdx_val_of_single rfl i q
theorem mmHH_r1 (i : S4096x256.Idx) (q : dot_S4096x256_S256x256_S4096x256_1_0_0_1_n_n.contr.Idx) : (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- Entry (p, c) of the product into a zero accumulator is the sum over the 256 contraction positions. -/
theorem mmHH_apply {φ₁ φ₂ : FTy} (prec : Option ContractPrecision) (a : FVec Ideal S4096x256 φ₁) (b : FVec Ideal S256x256 φ₂)
    (p : Fin 4096) (c : Fin 256) :
    matmul dot_S4096x256_S256x256_S4096x256_1_0_0_1_n_n prec a b (constant (F := Ideal) S4096x256 .f32 0x00000000#32) (ix2 p c)
      = ∑ k : Fin 256, a (ix2 p k) * b (ix2 k c) := by
  refine (Ideal.matmul_constant_zero_apply dot_S4096x256_S256x256_S4096x256_1_0_0_1_n_n prec a b (ix2 p c)).trans ?_
  rw [← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 p c) ((contrEquiv1 dot_S4096x256_S256x256_S4096x256_1_0_0_1_n_n 256 rfl rfl).symm k) = ix2 p k := funext fun ax => Fin.ext (by
    match ax with
    | ⟨0, _⟩ => exact mmHH_l0 _ _
    | ⟨1, _⟩ => exact (mmHH_l1 _ _).trans hk)
  have er : dot_S4096x256_S256x256_S4096x256_1_0_0_1_n_n.rhsIdx (ix2 p c) ((contrEquiv1 dot_S4096x256_S256x256_S4096x256_1_0_0_1_n_n 256 rfl rfl).symm k) = ix2 k c := funext fun ax => Fin.ext (by
    match ax with
    | ⟨0, _⟩ => exact (mmHH_r0 _ _).trans hk
    | ⟨1, _⟩ => exact mmHH_r1 _ _)
  rw [el, er]

/-! ### Hidden rows times the last layer's transposed weights: [4096, 256] x [256, 6] -/

theorem mmH6_l0 (i : S4096x6.Idx) (q : dot_S4096x256_S256x6_S4096x6_1_0_0_1_n_n.contr.Idx) : (dot_S4096x256_S256x6_S4096x6_1_0_0_1_n_n.lhsIdx i q 0).val = (i 0).val := by
  unfold DotDims.lhsIdx
  rw [dif_neg (show ¬(0 : Fin S4096x256.rank) ∈ dot_S4096x256_S256x6_S4096x6_1_0_0_1_n_n.lhsBatch by decide), dif_pos (show (0 : Fin S4096x256.rank) ∈ dot_S4096x256_S256x6_S4096x6_1_0_0_1_n_n.lhsNonContracting by decide)]
  rfl
theorem mmH6_l1 (i : S4096x6.Idx) (q : dot_S4096x256_S256x6_S4096x6_1_0_0_1_n_n.contr.Idx) : (dot_S4096x256_S256x6_S4096x6_1_0_0_1_n_n.lhsIdx i q 1).val = (q ⟨0, by decide⟩).val :=
  dot_S4096x256_S256x6_S4096x6_1_0_0_1_n_n.lhsIdx_val_of_single rfl i q
theorem mmH6_r0 (i : S4096x6.Idx) (q : dot_S4096x256_S256x6_S4096x6_1_0_0_1_n_n.contr.Idx) : (dot_S4096x256_S256x6_S4096x6_1_0_0_1_n_n.rhsIdx i q 0).val = (q ⟨0, by decide⟩).val :=
  dot_S4096x256_S256x6_S4096x6_1_0_0_1_n_n.rhsIdx_val_of_single rfl i q
theorem mmH6_r1 (i : S4096x6.Idx) (q : dot_S4096x256_S256x6_S4096x6_1_0_0_1_n_n.contr.Idx) : (dot_S4096x256_S256x6_S4096x6_1_0_0_1_n_n.rhsIdx i q 1).val = (i 1).val := by
  unfold DotDims.rhsIdx
  rw [dif_neg (show ¬(1 : Fin S256x6.rank) ∈ dot_S4096x256_S256x6_S4096x6_1_0_0_1_n_n.rhsBatch by decide), dif_pos (show (1 : Fin S256x6.rank) ∈ dot_S4096x256_S256x6_S4096x6_1_0_0_1_n_n.rhsNonContracting by decide)]
  rfl

/-- Entry (p, c) of the product into a zero accumulator is the sum over the 256 contraction positions. -/
theorem mmH6_apply {φ₁ φ₂ : FTy} (prec : Option ContractPrecision) (a : FVec Ideal S4096x256 φ₁) (b : FVec Ideal S256x6 φ₂)
    (p : Fin 4096) (c : Fin 6) :
    matmul dot_S4096x256_S256x6_S4096x6_1_0_0_1_n_n prec a b (constant (F := Ideal) S4096x6 .f32 0x00000000#32) (ix2 p c)
      = ∑ k : Fin 256, a (ix2 p k) * b (ix2 k c) := by
  refine (Ideal.matmul_constant_zero_apply dot_S4096x256_S256x6_S4096x6_1_0_0_1_n_n prec a b (ix2 p c)).trans ?_
  rw [← Equiv.sum_comp (contrEquiv1 dot_S4096x256_S256x6_S4096x6_1_0_0_1_n_n 256 rfl rfl).symm]
  refine Finset.sum_congr rfl fun k _ => ?_
  have hk := contrEquiv1_symm_val dot_S4096x256_S256x6_S4096x6_1_0_0_1_n_n 256 rfl rfl k
  have el : dot_S4096x256_S256x6_S4096x6_1_0_0_1_n_n.lhsIdx (ix2 p c) ((contrEquiv1 dot_S4096x256_S256x6_S4096x6_1_0_0_1_n_n 256 rfl rfl).symm k) = ix2 p k := funext fun ax => Fin.ext (by
    match ax with
    | ⟨0, _⟩ => exact mmH6_l0 _ _
    | ⟨1, _⟩ => exact (mmH6_l1 _ _).trans hk)
  have er : dot_S4096x256_S256x6_S4096x6_1_0_0_1_n_n.rhsIdx (ix2 p c) ((contrEquiv1 dot_S4096x256_S256x6_S4096x6_1_0_0_1_n_n 256 rfl rfl).symm k) = ix2 k c := funext fun ax => Fin.ext (by
    match ax with
    | ⟨0, _⟩ => exact (mmH6_r0 _ _).trans hk
    | ⟨1, _⟩ => exact mmH6_r1 _ _)
  rw [el, er]

/-! ### Hidden rows times the first layer's weights: [4096, 256] x [256, 8] -/

theorem mmH8_l0 (i : S4096x8.Idx) (q : dot_S4096x256_S256x8_S4096x8_1_0_0_1_n_n.contr.Idx) : (dot_S4096x256_S256x8_S4096x8_1_0_0_1_n_n.lhsIdx i q 0).val = (i 0).val := by
  unfold DotDims.lhsIdx
  rw [dif_neg (show ¬(0 : Fin S4096x256.rank) ∈ dot_S4096x256_S256x8_S4096x8_1_0_0_1_n_n.lhsBatch by decide), dif_pos (show (0 : Fin S4096x256.rank) ∈ dot_S4096x256_S256x8_S4096x8_1_0_0_1_n_n.lhsNonContracting by decide)]
  rfl
theorem mmH8_l1 (i : S4096x8.Idx) (q : dot_S4096x256_S256x8_S4096x8_1_0_0_1_n_n.contr.Idx) : (dot_S4096x256_S256x8_S4096x8_1_0_0_1_n_n.lhsIdx i q 1).val = (q ⟨0, by decide⟩).val :=
  dot_S4096x256_S256x8_S4096x8_1_0_0_1_n_n.lhsIdx_val_of_single rfl i q
theorem mmH8_r0 (i : S4096x8.Idx) (q : dot_S4096x256_S256x8_S4096x8_1_0_0_1_n_n.contr.Idx) : (dot_S4096x256_S256x8_S4096x8_1_0_0_1_n_n.rhsIdx i q 0).val = (q ⟨0, by decide⟩).val :=
  dot_S4096x256_S256x8_S4096x8_1_0_0_1_n_n.rhsIdx_val_of_single rfl i q
theorem mmH8_r1 (i : S4096x8.Idx) (q : dot_S4096x256_S256x8_S4096x8_1_0_0_1_n_n.contr.Idx) : (dot_S4096x256_S256x8_S4096x8_1_0_0_1_n_n.rhsIdx i q 1).val = (i 1).val := by
  unfold DotDims.rhsIdx
  rw [dif_neg (show ¬(1 : Fin S256x8.rank) ∈ dot_S4096x256_S256x8_S4096x8_1_0_0_1_n_n.rhsBatch by decide), dif_pos (show (1 : Fin S256x8.rank) ∈ dot_S4096x256_S256x8_S4096x8_1_0_0_1_n_n.rhsNonContracting by decide)]
  rfl

/-- Entry (p, c) of the product into a zero accumulator is the sum over the 256 contraction positions. -/
theorem mmH8_apply {φ₁ φ₂ : FTy} (prec : Option ContractPrecision) (a : FVec Ideal S4096x256 φ₁) (b : FVec Ideal S256x8 φ₂)
    (p : Fin 4096) (c : Fin 8) :
    matmul dot_S4096x256_S256x8_S4096x8_1_0_0_1_n_n prec a b (constant (F := Ideal) S4096x8 .f32 0x00000000#32) (ix2 p c)
      = ∑ k : Fin 256, a (ix2 p k) * b (ix2 k c) := by
  refine (Ideal.matmul_constant_zero_apply dot_S4096x256_S256x8_S4096x8_1_0_0_1_n_n prec a b (ix2 p c)).trans ?_
  rw [← Equiv.sum_comp (contrEquiv1 dot_S4096x256_S256x8_S4096x8_1_0_0_1_n_n 256 rfl rfl).symm]
  refine Finset.sum_congr rfl fun k _ => ?_
  have hk := contrEquiv1_symm_val dot_S4096x256_S256x8_S4096x8_1_0_0_1_n_n 256 rfl rfl k
  have el : dot_S4096x256_S256x8_S4096x8_1_0_0_1_n_n.lhsIdx (ix2 p c) ((contrEquiv1 dot_S4096x256_S256x8_S4096x8_1_0_0_1_n_n 256 rfl rfl).symm k) = ix2 p k := funext fun ax => Fin.ext (by
    match ax with
    | ⟨0, _⟩ => exact mmH8_l0 _ _
    | ⟨1, _⟩ => exact (mmH8_l1 _ _).trans hk)
  have er : dot_S4096x256_S256x8_S4096x8_1_0_0_1_n_n.rhsIdx (ix2 p c) ((contrEquiv1 dot_S4096x256_S256x8_S4096x8_1_0_0_1_n_n 256 rfl rfl).symm k) = ix2 k c := funext fun ax => Fin.ext (by
    match ax with
    | ⟨0, _⟩ => exact (mmH8_r0 _ _).trans hk
    | ⟨1, _⟩ => exact mmH8_r1 _ _)
  rw [el, er]

/-! ### Layout -/

/-- A vector of length b laid as the one row of a [1, b] array and repeated down a rows reads, at (p, c), entry c. -/
theorem rowBroadcast_apply {α : Type} {a b : Nat} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- Row o of an [n, b] matrix, cut out as a [1, b] array, flattened to length b and laid as a [1, b] row again,
    reads at (u, c) the matrix at (o, c). -/
theorem rowSlice_apply {α : Type} {n b : Nat} (o : Nat) (ho : o < n) (x : (⟨2, ![n, b]⟩ : Shape).Idx → α)
    (hs : (⟨2, ![n, b]⟩ : Shape).Slices ![o, 0] ⟨2, ![1, b]⟩)
    (h1 : (⟨2, ![1, b]⟩ : Shape).ShapeCasts ⟨1, ![b]⟩) (h2 : (⟨1, ![b]⟩ : Shape).ShapeCasts ⟨2, ![1, b]⟩)
    (u : Fin 1) (c : Fin b) :
    shapeCast ⟨2, ![1, b]⟩ (shapeCast ⟨1, ![b]⟩ (extractStridedSlice ⟨2, ![1, b]⟩ ![o, 0] x hs) h1) h2 (ix2 u c)
      = x (ix2 ⟨o, ho⟩ c) :=
  ((shapeCast_a_1a_apply _ h2 u c).trans (shapeCast_1a_a_apply _ h1 c)).trans
    (slice2_axis0_apply o x hs 0 c ⟨o, ho⟩ rfl)

/-! ### The ReLU mask as a word -/

/-- The comparison "z > 0" as a bit, widened to 32 bits and converted to a float, is 1 where z is positive and 0
    elsewhere. -/
theorem mask_word (z : Ideal .f32) :
    FloatOps.sitofp (F := Ideal) .f32 ((FloatOps.cmpf .ogt z (Scalar.ofBits (F := Ideal) .f32 0x00000000#32)).setWidth 32)
      = Cert.MlpJac.mask z := by
  have hz : Scalar.ofBits (F := Ideal) .f32 0x00000000#32 = (0 : EReal) := Ideal.ofBits_zero_f32
  rw [hz]
  show (((((Ideal.cmp .ogt z 0).setWidth 32).toInt : ℝ)) : EReal) = Cert.MlpJac.mask z
  unfold Cert.MlpJac.mask Ideal.cmp
  by_cases h : (0 : EReal) < z
  · rw [if_pos h]; simp [h]
  · rw [if_neg h]; simp [h]

end Cert.KernelIdeal.Hand

end
-- ==== Proof.PayloadFwd.lean ====
/-
  The forward pass of the kernel body read at one entry: row p of the first pre-activation is the row's product with
  the first layer's transposed weights plus the bias, its mask the indicator of positivity, the second layer the same
  over the masked first layer, and the output the last layer's product over the masked second layer plus its bias.
-/
import proofs.«113584_j55155970015481_2_alg».proof.Proof.PayloadOps

noncomputable section

open scoped BigOperators

namespace Cert.KernelIdeal.Hand

open Idealize.ShloMosaic Idealize.ShloMosaic.ValueIdx Cert.KernelIdeal Cert.KernelIdeal.Gen Cert.MlpJac

variable (x0 : Vec Ideal S4096x8 .f32) (x2 : Vec Ideal S8x256 .f32) (x4 : Vec Ideal S256x256 .f32)
  (x6 : Vec Ideal S256x6 .f32) (x7 x8 : Vec Ideal S256 .f32) (x9 : Vec Ideal S6 .f32)

/-- The first pre-activation z₁ at (p, h). -/
theorem pay2_apply (p : Fin 4096) (h : Fin 256) :
    k0_pay2 x0 x2 x7 (ix2 p h) = z1K (fun k => x0 (ix2 p k)) (fun k h => x2 (ix2 k h)) (fun h => x7 (ix1 h)) h := by
  unfold k0_pay2 z1K
  refine (addf_apply _ _ _).trans ?_
  refine congrArg₂ (· + ·) ((mmXW1_apply (some .fp32) _ _ p h).trans (Finset.sum_congr rfl fun k _ => ?_)) (rowBroadcast_apply x7 _ _ p h)
  rw [shapeCast_self, shapeCast_self]

/-- The first mask m₁ at (p, h). -/
theorem pay3_apply (p : Fin 4096) (h : Fin 256) :
    k0_pay3 x0 x2 x7 (ix2 p h) = m1K (fun k => x0 (ix2 p k)) (fun k h => x2 (ix2 k h)) (fun h => x7 (ix1 h)) h := by
  unfold k0_pay3 m1K
  refine (mask_word (k0_pay2 x0 x2 x7 (ix2 p h))).trans ?_
  rw [pay2_apply]

/-- The second pre-activation z₂ at (p, h). -/
theorem pay4_apply (p : Fin 4096) (h : Fin 256) :
    k0_pay4 x0 x2 x4 x7 x8 (ix2 p h) = z2K (fun k => x0 (ix2 p k)) (fun k h => x2 (ix2 k h)) (fun k h => x4 (ix2 k h)) (fun h => x7 (ix1 h)) (fun h => x8 (ix1 h)) h := by
  unfold k0_pay4 z2K
  refine (addf_apply _ _ _).trans ?_
  refine congrArg₂ (· + ·) ((mmHH_apply none _ _ p h).trans (Finset.sum_congr rfl fun k _ => ?_)) (rowBroadcast_apply x8 _ _ p h)
  show k0_pay2 x0 x2 x7 (ix2 p k) * k0_pay3 x0 x2 x7 (ix2 p k) * shapeCast S256x256 x4 _ (ix2 k h) = _
  rw [pay2_apply, pay3_apply, shapeCast_self]
  rfl

/-- The second mask m₂ at (p, h). -/
theorem pay5_apply (p : Fin 4096) (h : Fin 256) :
    k0_pay5 x0 x2 x4 x7 x8 (ix2 p h) = m2K (fun k => x0 (ix2 p k)) (fun k h => x2 (ix2 k h)) (fun k h => x4 (ix2 k h)) (fun h => x7 (ix1 h)) (fun h => x8 (ix1 h)) h := by
  unfold k0_pay5 m2K
  refine (mask_word (k0_pay4 x0 x2 x4 x7 x8 (ix2 p h))).trans ?_
  rw [pay4_apply]

/-- The network's output ẏ at (p, i). -/
theorem ydot_apply (p : Fin 4096) (i : Fin 6) :
    k0_pay8 (k0_pay6 x0 x2 x4 x6 x7 x8) (k0_pay7 x9) (ix2 p i)
      = ydotK (fun k => x0 (ix2 p k)) (fun k h => x2 (ix2 k h)) (fun k h => x4 (ix2 k h)) (fun k i => x6 (ix2 k i)) (fun h => x7 (ix1 h)) (fun h => x8 (ix1 h)) (fun i => x9 (ix1 i)) i := by
  unfold k0_pay8 k0_pay6 k0_pay7 ydotK
  refine (addf_apply _ _ _).trans ?_
  refine congrArg₂ (· + ·) ((mmH6_apply (some .fp32) _ _ p i).trans (Finset.sum_congr rfl fun k _ => ?_)) (rowBroadcast_apply x9 _ _ p i)
  show k0_pay4 x0 x2 x4 x7 x8 (ix2 p k) * k0_pay5 x0 x2 x4 x7 x8 (ix2 p k) * shapeCast S256x6 x6 _ (ix2 k i) = _
  rw [pay4_apply, pay5_apply, shapeCast_self]
  rfl

end Cert.KernelIdeal.Hand

end
-- ==== Proof.PayloadJac.lean ====
/-
  One row of the Jacobian as the kernel body computes it: row i of W₃ is repeated down the block's rows and masked by
  the second layer, multiplied by W₂, masked by the first layer, and multiplied by W₁. Read at (p, k) this is the
  triple sum that defines the Jacobian entry (i, k) at input row p.
-/
import proofs.«113584_j55155970015481_2_alg».proof.Proof.PayloadFwd

noncomputable section

open scoped BigOperators

namespace Cert.KernelIdeal.Hand

open Idealize.ShloMosaic Idealize.ShloMosaic.ValueIdx Cert.KernelIdeal Cert.KernelIdeal.Gen Cert.MlpJac

/-- The chain of two products with its two masks, read at (p, k), over any operands. -/
theorem jacRow_apply (v2 : Vec Ideal S256x8 .f32) (v38 : FVec Ideal S256x256 .bf16) (v21 v32 : FVec Ideal S4096x256 .f32)
    (r : FVec Ideal S1x256 .f32) (hb : S1x256.Broadcasts S4096x256) (ht : FTy.bits .bf16 < FTy.bits .f32)
    (p : Fin 4096) (k : Fin 8) :
    matmul (φ₂ := .f32) dot_S4096x256_S256x8_S4096x8_1_0_0_1_n_n (some .fp32)
        (mulf (matmul dot_S4096x256_S256x256_S4096x256_1_0_0_1_n_n none
          (truncf .bf16 (mulf (broadcastTo S4096x256 r hb) v32) ht) v38 (constant (F := Ideal) S4096x256 .f32 0x00000000#32)) v21)
        v2 (constant (F := Ideal) S4096x8 .f32 0x00000000#32) (ix2 p k)
      = ∑ h : Fin 256, ((∑ g : Fin 256, (r (ix2 0 g) * v32 (ix2 p g)) * v38 (ix2 g h)) * v21 (ix2 p h)) * v2 (ix2 h k) := by
  refine (mmH8_apply (some .fp32) _ _ p k).trans (Finset.sum_congr rfl fun h _ => ?_)
  refine congrArg (· * v2 (ix2 h k)) ?_
  refine (mulf_apply _ _ _).trans ?_
  refine congrArg (· * v21 (ix2 p h)) ?_
  refine (mmHH_apply none _ _ p h).trans (Finset.sum_congr rfl fun g _ => ?_)
  refine congrArg (· * v38 (ix2 g h)) ?_
  show broadcastTo S4096x256 r hb (ix2 p g) * v32 (ix2 p g) = _
  rw [broadcastTo_1b_ab_apply]

variable (x0 : Vec Ideal S4096x8 .f32) (x1 : Vec Ideal S256x8 .f32) (x2 : Vec Ideal S8x256 .f32)
  (x3 : Vec Ideal S256x256 .f32) (x4 : Vec Ideal S256x256 .f32) (x5 : Vec Ideal S6x256 .f32)
  (x7 x8 : Vec Ideal S256 .f32)

/-- With the body's own masks and weights, and a [1, 256] array r that holds row i of W₃, the chain at (p, k) is the
    Jacobian entry (i, k) at input row p. -/
theorem jacRow_eq (r : FVec Ideal S1x256 .f32) (hb : S1x256.Broadcasts S4096x256) (ht : FTy.bits .bf16 < FTy.bits .f32)
    (i : Fin 6) (hr : ∀ g : Fin 256, r (ix2 0 g) = x5 (ix2 i g)) (p : Fin 4096) (k : Fin 8) :
    matmul (φ₂ := .f32) dot_S4096x256_S256x8_S4096x8_1_0_0_1_n_n (some .fp32)
        (mulf (matmul dot_S4096x256_S256x256_S4096x256_1_0_0_1_n_n none
          (truncf .bf16 (mulf (broadcastTo S4096x256 r hb) (k0_pay5 x0 x2 x4 x7 x8)) ht) (truncf .bf16 x3 ht)
          (constant (F := Ideal) S4096x256 .f32 0x00000000#32)) (k0_pay3 x0 x2 x7))
        x1 (constant (F := Ideal) S4096x8 .f32 0x00000000#32) (ix2 p k)
      = jacK (fun k => x0 (ix2 p k)) (fun h k => x1 (ix2 h k)) (fun k h => x2 (ix2 k h)) (fun h j => x3 (ix2 h j)) (fun k h => x4 (ix2 k h)) (fun i h => x5 (ix2 i h)) (fun h => x7 (ix1 h)) (fun h => x8 (ix1 h)) i k := by
  refine (jacRow_apply x1 _ _ _ r hb ht p k).trans ?_
  unfold jacK bK aK
  refine Finset.sum_congr rfl fun h _ => ?_
  rw [pay3_apply]
  refine congrArg (· * _) (congrArg (· * _) (Finset.sum_congr rfl fun g _ => ?_))
  rw [hr g, pay5_apply]
  rfl

/-- Jacobian row 0 at (p, k). -/
theorem pay10_apply (p : Fin 4096) (k : Fin 8) :
    k0_pay10 x1 x3 x5 (k0_pay3 x0 x2 x7) (k0_pay5 x0 x2 x4 x7 x8) (ix2 p k) = jacK (fun k => x0 (ix2 p k)) (fun h k => x1 (ix2 h k)) (fun k h => x2 (ix2 k h)) (fun h j => x3 (ix2 h j)) (fun k h => x4 (ix2 k h)) (fun i h => x5 (ix2 i h)) (fun h => x7 (ix1 h)) (fun h => x8 (ix1 h)) 0 k := by
  unfold k0_pay10 k0_pay9
  exact jacRow_eq x0 x1 x2 x3 x4 x5 x7 x8 _ _ _ 0 (fun g => rowSlice_apply 0 (by decide) x5 _ _ _ 0 g) p k

/-- Jacobian row 1 at (p, k). -/
theorem pay11_apply (p : Fin 4096) (k : Fin 8) :
    k0_pay11 x1 x3 x5 (k0_pay3 x0 x2 x7) (k0_pay5 x0 x2 x4 x7 x8) (ix2 p k) = jacK (fun k => x0 (ix2 p k)) (fun h k => x1 (ix2 h k)) (fun k h => x2 (ix2 k h)) (fun h j => x3 (ix2 h j)) (fun k h => x4 (ix2 k h)) (fun i h => x5 (ix2 i h)) (fun h => x7 (ix1 h)) (fun h => x8 (ix1 h)) 1 k := by
  unfold k0_pay11 k0_pay9
  exact jacRow_eq x0 x1 x2 x3 x4 x5 x7 x8 _ _ _ 1 (fun g => rowSlice_apply 1 (by decide) x5 _ _ _ 0 g) p k

/-- Jacobian row 2 at (p, k). -/
theorem pay12_apply (p : Fin 4096) (k : Fin 8) :
    k0_pay12 x1 x3 x5 (k0_pay3 x0 x2 x7) (k0_pay5 x0 x2 x4 x7 x8) (ix2 p k) = jacK (fun k => x0 (ix2 p k)) (fun h k => x1 (ix2 h k)) (fun k h => x2 (ix2 k h)) (fun h j => x3 (ix2 h j)) (fun k h => x4 (ix2 k h)) (fun i h => x5 (ix2 i h)) (fun h => x7 (ix1 h)) (fun h => x8 (ix1 h)) 2 k := by
  unfold k0_pay12 k0_pay9
  exact jacRow_eq x0 x1 x2 x3 x4 x5 x7 x8 _ _ _ 2 (fun g => rowSlice_apply 2 (by decide) x5 _ _ _ 0 g) p k

/-- Jacobian row 3 at (p, k). -/
theorem pay13_apply (p : Fin 4096) (k : Fin 8) :
    k0_pay13 x1 x3 x5 (k0_pay3 x0 x2 x7) (k0_pay5 x0 x2 x4 x7 x8) (ix2 p k) = jacK (fun k => x0 (ix2 p k)) (fun h k => x1 (ix2 h k)) (fun k h => x2 (ix2 k h)) (fun h j => x3 (ix2 h j)) (fun k h => x4 (ix2 k h)) (fun i h => x5 (ix2 i h)) (fun h => x7 (ix1 h)) (fun h => x8 (ix1 h)) 3 k := by
  unfold k0_pay13 k0_pay9
  exact jacRow_eq x0 x1 x2 x3 x4 x5 x7 x8 _ _ _ 3 (fun g => rowSlice_apply 3 (by decide) x5 _ _ _ 0 g) p k

/-- Jacobian row 4 at (p, k). -/
theorem pay14_apply (p : Fin 4096) (k : Fin 8) :
    k0_pay14 x1 x3 x5 (k0_pay3 x0 x2 x7) (k0_pay5 x0 x2 x4 x7 x8) (ix2 p k) = jacK (fun k => x0 (ix2 p k)) (fun h k => x1 (ix2 h k)) (fun k h => x2 (ix2 k h)) (fun h j => x3 (ix2 h j)) (fun k h => x4 (ix2 k h)) (fun i h => x5 (ix2 i h)) (fun h => x7 (ix1 h)) (fun h => x8 (ix1 h)) 4 k := by
  unfold k0_pay14 k0_pay9
  exact jacRow_eq x0 x1 x2 x3 x4 x5 x7 x8 _ _ _ 4 (fun g => rowSlice_apply 4 (by decide) x5 _ _ _ 0 g) p k

/-- The row of W₃ the body keeps for the last Jacobian row. -/
theorem pay15_apply (g : Fin 256) : k0_pay15 x5 (ix2 0 g) = x5 (ix2 5 g) := by
  unfold k0_pay15
  exact rowSlice_apply 5 (by decide) x5 _ _ _ 0 g

end Cert.KernelIdeal.Hand

end
-- ==== Proof.Payload.lean ====
/-
  The block the kernel body stores, read at one entry. Row p of the [4096, 54] block is the network's six outputs at
  input row p followed by the six rows of its Jacobian, eight entries each: the body joins the six [4096, 8] Jacobian
  rows side by side into [4096, 48] and puts the [4096, 6] output block in front.
-/
import proofs.«113584_j55155970015481_2_alg».proof.Proof.Body
import proofs.«113584_j55155970015481_2_alg».proof.Proof.PayloadJac

noncomputable section

open scoped BigOperators

namespace Cert.KernelIdeal.Hand

open Idealize.ShloMosaic Idealize.ShloMosaic.ValueIdx Cert.KernelIdeal Cert.KernelIdeal.Gen Cert.MlpJac

variable (x0 : Vec Ideal S4096x8 .f32) (x1 : Vec Ideal S256x8 .f32) (x2 : Vec Ideal S8x256 .f32)
  (x3 : Vec Ideal S256x256 .f32) (x4 : Vec Ideal S256x256 .f32) (x5 : Vec Ideal S6x256 .f32)
  (x6 : Vec Ideal S256x6 .f32) (x7 : Vec Ideal S256 .f32) (x8 : Vec Ideal S256 .f32) (x9 : Vec Ideal S6 .f32)

/-- The first six columns of row p are the network's output at input row p. -/
theorem bodyVal_left (p : Fin 4096) (i : Fin 6) (hi : i.val < 54) :
    bodyVal x0 x1 x2 x3 x4 x5 x6 x7 x8 x9 (ix2 p ⟨i.val, hi⟩) = ydotK (fun k => x0 (ix2 p k)) (fun k h => x2 (ix2 k h)) (fun k h => x4 (ix2 k h)) (fun k i => x6 (ix2 k i)) (fun h => x7 (ix1 h)) (fun h => x8 (ix1 h)) (fun i => x9 (ix1 i)) i := by
  unfold bodyVal k0_pay1
  refine (concatenate_pair_apply_left (t := S4096x54) (s₁ := S4096x6) (s₂ := S4096x48) (1 : Fin 2) _ _ _ (ix2 p ⟨i.val, hi⟩) rfl (ix2 p i) (fun b => ?_)).trans
    (ydot_apply x0 x2 x4 x6 x7 x8 x9 p i)
  match b with
  | ⟨0, _⟩ => rfl
  | ⟨1, _⟩ => rfl

/-- Column 6 + 8 i + k of row p is the Jacobian entry (i, k) at input row p. -/
theorem bodyVal_right (p : Fin 4096) (i : Fin 6) (k : Fin 8) (hj : 6 + (8 * i.val + k.val) < 54) :
    bodyVal x0 x1 x2 x3 x4 x5 x6 x7 x8 x9 (ix2 p ⟨6 + (8 * i.val + k.val), hj⟩) = jacK (fun k => x0 (ix2 p k)) (fun h k => x1 (ix2 h k)) (fun k h => x2 (ix2 k h)) (fun h j => x3 (ix2 h j)) (fun k h => x4 (ix2 k h)) (fun i h => x5 (ix2 i h)) (fun h => x7 (ix1 h)) (fun h => x8 (ix1 h)) i k := by
  have hc : 8 * i.val + k.val < 48 := by omega
  unfold bodyVal k0_pay1
  refine (concatenate_pair_apply_right (t := S4096x54) (s₁ := S4096x6) (s₂ := S4096x48) (1 : Fin 2) _ _ _ (ix2 p ⟨6 + (8 * i.val + k.val), hj⟩) rfl rfl
    (ix2 p ⟨8 * i.val + k.val, hc⟩) (fun b hb => ?_) ?_).trans ?_
  · match b with
    | ⟨0, _⟩ => rfl
    | ⟨1, _⟩ => exact absurd rfl hb
  · show (8 * i.val + k.val) + 6 = 6 + (8 * i.val + k.val)
    omega
  · match i with
    | ⟨0, _⟩ =>
      refine Eq.trans (concatenate_apply_piece (t := S4096x48) (1 : Fin 2) _ _ _ 0 (by show 0 < 6; omega) S4096x8 _ rfl rfl (8 * 0) rfl (ix2 p k)
        (fun b hb => ?_) rfl) (pay10_apply x0 x1 x2 x3 x4 x5 x7 x8 p k)
      match b with
      | ⟨0, _⟩ => rfl
      | ⟨1, _⟩ => exact absurd rfl hb
    | ⟨1, _⟩ =>
      refine Eq.trans (concatenate_apply_piece (t := S4096x48) (1 : Fin 2) _ _ _ 1 (by show 1 < 6; omega) S4096x8 _ rfl rfl (8 * 1) rfl (ix2 p k)
        (fun b hb => ?_) rfl) (pay11_apply x0 x1 x2 x3 x4 x5 x7 x8 p k)
      match b with
      | ⟨0, _⟩ => rfl
      | ⟨1, _⟩ => exact absurd rfl hb
    | ⟨2, _⟩ =>
      refine Eq.trans (concatenate_apply_piece (t := S4096x48) (1 : Fin 2) _ _ _ 2 (by show 2 < 6; omega) S4096x8 _ rfl rfl (8 * 2) rfl (ix2 p k)
        (fun b hb => ?_) rfl) (pay12_apply x0 x1 x2 x3 x4 x5 x7 x8 p k)
      match b with
      | ⟨0, _⟩ => rfl
      | ⟨1, _⟩ => exact absurd rfl hb
    | ⟨3, _⟩ =>
      refine Eq.trans (concatenate_apply_piece (t := S4096x48) (1 : Fin 2) _ _ _ 3 (by show 3 < 6; omega) S4096x8 _ rfl rfl (8 * 3) rfl (ix2 p k)
        (fun b hb => ?_) rfl) (pay13_apply x0 x1 x2 x3 x4 x5 x7 x8 p k)
      match b with
      | ⟨0, _⟩ => rfl
      | ⟨1, _⟩ => exact absurd rfl hb
    | ⟨4, _⟩ =>
      refine Eq.trans (concatenate_apply_piece (t := S4096x48) (1 : Fin 2) _ _ _ 4 (by show 4 < 6; omega) S4096x8 _ rfl rfl (8 * 4) rfl (ix2 p k)
        (fun b hb => ?_) rfl) (pay14_apply x0 x1 x2 x3 x4 x5 x7 x8 p k)
      match b with
      | ⟨0, _⟩ => rfl
      | ⟨1, _⟩ => exact absurd rfl hb
    | ⟨5, _⟩ =>
      refine Eq.trans (concatenate_apply_piece (t := S4096x48) (1 : Fin 2) _ _ _ 5 (by show 5 < 6; omega) S4096x8 _ rfl rfl (8 * 5) rfl (ix2 p k)
        (fun b hb => ?_) rfl) (jacRow_eq x0 x1 x2 x3 x4 x5 x7 x8 (k0_pay15 x5) _ _ 5 (pay15_apply x5) p k)
      match b with
      | ⟨0, _⟩ => rfl
      | ⟨1, _⟩ => exact absurd rfl hb

/-- The stored block at (p, j): the 54-wide row of outputs and Jacobian of input row p, column j. -/
theorem bodyVal_apply (p : Fin 4096) (j : Fin 54) :
    bodyVal x0 x1 x2 x3 x4 x5 x6 x7 x8 x9 (ix2 p j) = row54 (ydotK (fun k => x0 (ix2 p k)) (fun k h => x2 (ix2 k h)) (fun k h => x4 (ix2 k h)) (fun k i => x6 (ix2 k i)) (fun h => x7 (ix1 h)) (fun h => x8 (ix1 h)) (fun i => x9 (ix1 i))) (jacK (fun k => x0 (ix2 p k)) (fun h k => x1 (ix2 h k)) (fun k h => x2 (ix2 k h)) (fun h j => x3 (ix2 h j)) (fun k h => x4 (ix2 k h)) (fun i h => x5 (ix2 i h)) (fun h => x7 (ix1 h)) (fun h => x8 (ix1 h))) j := by
  by_cases h : j.val < 6
  · obtain ⟨i, hi, rfl⟩ : ∃ (i : Fin 6) (hi : i.val < 54), j = ⟨i.val, hi⟩ := ⟨⟨j.val, h⟩, j.isLt, rfl⟩
    rw [row54_left]
    exact bodyVal_left x0 x1 x2 x3 x4 x5 x6 x7 x8 x9 p i hi
  · obtain ⟨i, k, hj, rfl⟩ : ∃ (i : Fin 6) (k : Fin 8) (hj : 6 + (8 * i.val + k.val) < 54),
        j = ⟨6 + (8 * i.val + k.val), hj⟩ := by
      have hlt := j.isLt
      refine ⟨⟨(j.val - 6) / 8, by omega⟩, ⟨(j.val - 6) % 8, Nat.mod_lt _ (by decide)⟩, ?_, Fin.ext ?_⟩
      · show 6 + (8 * ((j.val - 6) / 8) + (j.val - 6) % 8) < 54
        omega
      · show j.val = 6 + (8 * ((j.val - 6) / 8) + (j.val - 6) % 8)
        omega
    rw [row54_right]
    exact bodyVal_right x0 x1 x2 x3 x4 x5 x6 x7 x8 x9 p i k hj

end Cert.KernelIdeal.Hand

end
-- ==== Proof.Glue.lean ====
/-
  The host-side layout operations of the kernel program, read at an index.

  The program flattens the [64, 1024, 8] feature array to 65536 rows of 8, transposes the three forward weight
  matrices, and cuts the kernel's [65536, 54] result back into the network's output (columns 0 … 5), the 6 × 6
  block of the Jacobian and its last two columns (columns 6 … 53 read as a 6 × 8 matrix, row-major).
  Row r = 1024 a + b of the flat arrays is entry (a, b) of the batched ones.  Every lemma here is a statement
  about arrays as functions on indices: no program is run.
-/
import proofs.«113584_j55155970015481_2_alg».proof.Proof.Gen.KernelIdeal
import Idealize.ShloMosaic.Lib.Pipeline.Value
import Idealize.ShloMosaic.Lib.ValueIdx
import Idealize.ShloMosaic.Lib.ValueLayout

namespace Cert.KernelIdeal.Glue

open Idealize.ShloMosaic Idealize.ShloMosaic.ValueIdx Cert.KernelIdeal Cert.KernelIdeal.Facts₀

variable {α : Type}

/-! ## The flattened features -/

/-- Row 1024 a + b of the flattened feature array is entry (a, b) of the batched one. -/
theorem rows_apply (XC : S64x1024x8.Idx → α) (a : Fin 64) (b : Fin 1024) (k : Fin 8)
    (hr : a.val * 1024 + b.val < 65536) :
    shapeCast S65536x8 XC shapeCasts_S64x1024x8_S65536x8 (ix2 ⟨a.val * 1024 + b.val, hr⟩ k) = XC (ix3 a b k) := by
  refine shapeCast_apply _ _ _ _ ?_
  rw [Shape.rowMajor_val_two, Shape.rowMajor_val_three]
  rfl

/-! ## The transposed weights -/

/-- The first layer's weights transposed: entry (k, h) is entry (h, k). -/
theorem w1T_apply (W : S256x8.Idx → α) (k : Fin 8) (h : Fin 256) :
    transpose S8x256 [1, 0] W transposes_S256x8_S8x256_1_0 (ix2 k h) = W (ix2 h k) :=
  transpose_apply _ _ _ _ _ (fun b => match b with | ⟨0, _⟩ => rfl | ⟨1, _⟩ => rfl)

/-- The second layer's weights transposed. -/
theorem w2T_apply (W : S256x256.Idx → α) (k : Fin 256) (h : Fin 256) :
    transpose S256x256 [1, 0] W transposes_S256x256_S256x256_1_0 (ix2 k h) = W (ix2 h k) :=
  transpose_apply _ _ _ _ _ (fun b => match b with | ⟨0, _⟩ => rfl | ⟨1, _⟩ => rfl)

/-- The third layer's weights transposed. -/
theorem w3T_apply (W : S6x256.Idx → α) (h : Fin 256) (i : Fin 6) :
    transpose S256x6 [1, 0] W transposes_S6x256_S256x6_1_0 (ix2 h i) = W (ix2 i h) :=
  transpose_apply _ _ _ _ _ (fun b => match b with | ⟨0, _⟩ => rfl | ⟨1, _⟩ => rfl)

/-! ## The kernel's result cut into the four outputs -/

/-- The result viewed [64, 1024, 54]: entry (a, b, c) is row 1024 a + b, column c. -/
theorem out3_apply (O : S65536x54.Idx → α) (a : Fin 64) (b : Fin 1024) (c : Fin 54)
    (hr : a.val * 1024 + b.val < 65536) :
    shapeCast S64x1024x54 O shapeCasts_S65536x54_S64x1024x54 (ix3 a b c) = O (ix2 ⟨a.val * 1024 + b.val, hr⟩ c) := by
  refine shapeCast_apply _ _ _ _ ?_
  rw [Shape.rowMajor_val_two, Shape.rowMajor_val_three]
  rfl

/-- Columns 6 … 53 viewed as a 6 × 8 matrix, row-major: entry (a, b, i, k) is row 1024 a + b, column 6 + (8 i + k). -/
theorem jac4_apply (O : S65536x54.Idx → α) (a : Fin 64) (b : Fin 1024) (i : Fin 6) (k : Fin 8)
    (hr : a.val * 1024 + b.val < 65536) (hc : 6 + (8 * i.val + k.val) < 54) :
    shapeCast S64x1024x6x8
        (extractStridedSlice S64x1024x48 ![0, 0, 6] (shapeCast S64x1024x54 O shapeCasts_S65536x54_S64x1024x54)
          slices_S64x1024x54_S64x1024x48_0_0_6)
        shapeCasts_S64x1024x48_S64x1024x6x8 (ix4 a b i k)
      = O (ix2 ⟨a.val * 1024 + b.val, hr⟩ ⟨6 + (8 * i.val + k.val), hc⟩) := by
  have hi : i.val < 6 := i.isLt
  have hk : k.val < 8 := k.isLt
  -- the reshape [64,1024,48] → [64,1024,6,8]: position 8 i + k of the 48
  refine (shapeCast_apply _ _ _ (ix3 a b (⟨8 * i.val + k.val, by omega⟩ : Fin 48)) (by
    rw [Shape.rowMajor_val_three, Shape.rowMajor_val_four]
    show (a.val * 1024 + b.val) * 48 + (8 * i.val + k.val) = ((a.val * 1024 + b.val) * 6 + i.val) * 8 + k.val
    omega)).trans ?_
  -- the slice from column 6 on
  refine (extractStridedSlice_apply _ _ _ _ (ix3 a b (⟨6 + (8 * i.val + k.val), hc⟩ : Fin 54)) (fun d => match d with
    | ⟨0, _⟩ => by show a.val = 0 + a.val; omega
    | ⟨1, _⟩ => by show b.val = 0 + b.val; omega
    | ⟨2, _⟩ => by show 6 + (8 * i.val + k.val) = 6 + (8 * i.val + k.val); rfl)).trans ?_
  exact out3_apply O a b _ hr

/-- The first result: the network's six outputs are columns 0 … 5. -/
theorem res0_apply (O : S65536x54.Idx → α) (a : Fin 64) (b : Fin 1024) (i : Fin 6)
    (hr : a.val * 1024 + b.val < 65536) (hc : i.val < 54) :
    extractStridedSlice S64x1024x6 ![0, 0, 0] (shapeCast S64x1024x54 O shapeCasts_S65536x54_S64x1024x54)
        slices_S64x1024x54_S64x1024x6_0_0_0 (ix3 a b i)
      = O (ix2 ⟨a.val * 1024 + b.val, hr⟩ ⟨i.val, hc⟩) := by
  refine (extractStridedSlice_apply _ _ _ _ (ix3 a b (⟨i.val, hc⟩ : Fin 54)) (fun d => match d with
    | ⟨0, _⟩ => by show a.val = 0 + a.val; omega
    | ⟨1, _⟩ => by show b.val = 0 + b.val; omega
    | ⟨2, _⟩ => by show i.val = 0 + i.val; omega)).trans ?_
  exact out3_apply O a b _ hr

/-- The second result: the 6 × 6 block of the Jacobian, entry (i, k) at column 6 + (8 i + k). -/
theorem res1_apply (O : S65536x54.Idx → α) (a : Fin 64) (b : Fin 1024) (i k : Fin 6)
    (hr : a.val * 1024 + b.val < 65536) (hc : 6 + (8 * i.val + k.val) < 54) :
    extractStridedSlice S64x1024x6x6 ![0, 0, 0, 0]
        (shapeCast S64x1024x6x8
          (extractStridedSlice S64x1024x48 ![0, 0, 6] (shapeCast S64x1024x54 O shapeCasts_S65536x54_S64x1024x54)
            slices_S64x1024x54_S64x1024x48_0_0_6)
          shapeCasts_S64x1024x48_S64x1024x6x8)
        slices_S64x1024x6x8_S64x1024x6x6_0_0_0_0 (ix4 a b i k)
      = O (ix2 ⟨a.val * 1024 + b.val, hr⟩ ⟨6 + (8 * i.val + k.val), hc⟩) := by
  have hk : k.val < 6 := k.isLt
  refine (extractStridedSlice_apply _ _ _ _ (ix4 a b i (⟨k.val, by omega⟩ : Fin 8)) (fun d => match d with
    | ⟨0, _⟩ => by show a.val = 0 + a.val; omega
    | ⟨1, _⟩ => by show b.val = 0 + b.val; omega
    | ⟨2, _⟩ => by show i.val = 0 + i.val; omega
    | ⟨3, _⟩ => by show k.val = 0 + k.val; omega)).trans ?_
  exact jac4_apply O a b i ⟨k.val, by omega⟩ hr hc

/-- The third result: column 6 of the 6 × 8 matrix, entry i at column 6 + (8 i + 6). -/
theorem res2_apply (O : S65536x54.Idx → α) (a : Fin 64) (b : Fin 1024) (i : Fin 6)
    (hr : a.val * 1024 + b.val < 65536) (hc : 6 + (8 * i.val + 6) < 54) :
    shapeCast S64x1024x6
        (extractStridedSlice S64x1024x6x1 ![0, 0, 0, 6]
          (shapeCast S64x1024x6x8
            (extractStridedSlice S64x1024x48 ![0, 0, 6] (shapeCast S64x1024x54 O shapeCasts_S65536x54_S64x1024x54)
              slices_S64x1024x54_S64x1024x48_0_0_6)
            shapeCasts_S64x1024x48_S64x1024x6x8)
          slices_S64x1024x6x8_S64x1024x6x1_0_0_0_6)
        shapeCasts_S64x1024x6x1_S64x1024x6 (ix3 a b i)
      = O (ix2 ⟨a.val * 1024 + b.val, hr⟩ ⟨6 + (8 * i.val + 6), hc⟩) := by
  -- the reshape dropping the unit axis
  refine (shapeCast_apply _ _ _ (ix4 a b i (⟨0, Nat.one_pos⟩ : Fin 1)) (by
    rw [Shape.rowMajor_val_four, Shape.rowMajor_val_three]
    show ((a.val * 1024 + b.val) * 6 + i.val) * 1 + 0 = (a.val * 1024 + b.val) * 6 + i.val
    omega)).trans ?_
  -- the one-column slice at column 6
  refine (extractStridedSlice_apply _ _ _ _ (ix4 a b i (⟨6, by omega⟩ : Fin 8)) (fun d => match d with
    | ⟨0, _⟩ => by show a.val = 0 + a.val; omega
    | ⟨1, _⟩ => by show b.val = 0 + b.val; omega
    | ⟨2, _⟩ => by show i.val = 0 + i.val; omega
    | ⟨3, _⟩ => by show 6 = 6 + 0; rfl)).trans ?_
  exact jac4_apply O a b i ⟨6, by omega⟩ hr hc

/-- The fourth result: column 7 of the 6 × 8 matrix, entry i at column 6 + (8 i + 7). -/
theorem res3_apply (O : S65536x54.Idx → α) (a : Fin 64) (b : Fin 1024) (i : Fin 6)
    (hr : a.val * 1024 + b.val < 65536) (hc : 6 + (8 * i.val + 7) < 54) :
    shapeCast S64x1024x6
        (extractStridedSlice S64x1024x6x1 ![0, 0, 0, 7]
          (shapeCast S64x1024x6x8
            (extractStridedSlice S64x1024x48 ![0, 0, 6] (shapeCast S64x1024x54 O shapeCasts_S65536x54_S64x1024x54)
              slices_S64x1024x54_S64x1024x48_0_0_6)
            shapeCasts_S64x1024x48_S64x1024x6x8)
          slices_S64x1024x6x8_S64x1024x6x1_0_0_0_7)
        shapeCasts_S64x1024x6x1_S64x1024x6 (ix3 a b i)
      = O (ix2 ⟨a.val * 1024 + b.val, hr⟩ ⟨6 + (8 * i.val + 7), hc⟩) := by
  refine (shapeCast_apply _ _ _ (ix4 a b i (⟨0, Nat.one_pos⟩ : Fin 1)) (by
    rw [Shape.rowMajor_val_four, Shape.rowMajor_val_three]
    show ((a.val * 1024 + b.val) * 6 + i.val) * 1 + 0 = (a.val * 1024 + b.val) * 6 + i.val
    omega)).trans ?_
  refine (extractStridedSlice_apply _ _ _ _ (ix4 a b i (⟨7, by omega⟩ : Fin 8)) (fun d => match d with
    | ⟨0, _⟩ => by show a.val = 0 + a.val; omega
    | ⟨1, _⟩ => by show b.val = 0 + b.val; omega
    | ⟨2, _⟩ => by show i.val = 0 + i.val; omega
    | ⟨3, _⟩ => by show 7 = 7 + 0; rfl)).trans ?_
  exact jac4_apply O a b i ⟨7, by omega⟩ hr hc

/-! ## Rows, batches and blocks: the arithmetic -/

/-- A row below 65536 lies in one of 16 blocks of 4096 rows … -/
theorem block_div_lt (r : Nat) (h : r < 65536) : r / 4096 < 16 := by omega
/-- … at a position below 4096 in it … -/
theorem block_mod_lt (r : Nat) : r % 4096 < 4096 := by omega
/-- … and is the block's first row plus that position. -/
theorem block_div_add_mod (r : Nat) : 4096 * (r / 4096) + r % 4096 = r := by omega
/-- A row below 65536 is entry (r / 1024, r % 1024) of the batched arrays. -/
theorem batch_div_lt (r : Nat) (h : r < 65536) : r / 1024 < 64 := by omega
theorem batch_mod_lt (r : Nat) : r % 1024 < 1024 := by omega
theorem batch_div_mul_add_mod (r : Nat) : r / 1024 * 1024 + r % 1024 = r := by omega
/-- Entry (a, b) of the batched arrays is a row below 65536. -/
theorem row_lt (a : Fin 64) (b : Fin 1024) : a.val * 1024 + b.val < 65536 := by
  have := a.isLt; have := b.isLt; omega
/-- The Jacobian's entry (i, k) lies at a column below 54. -/
theorem col_lt (i : Fin 6) (k : Fin 8) : 6 + (8 * i.val + k.val) < 54 := by
  have := i.isLt; have := k.isLt; omega

end Cert.KernelIdeal.Glue
-- ==== Proof.KernelValue.lean ====
/-
  The kernel program's four results as the specification's arrays, at the ideal instance.

  Each grid point `t` writes back rows 4096·t … 4096·t + 4095 of the [65536, 54] result; the rows block it reads is
  the same rows of the [65536, 8] input, and the nine parameter blocks are the whole parameter arrays.  So what
  point `t` writes is block `t` of ONE function of the region-entry arrays, row by row, and the sixteen blocks cover
  the result: the result array is that function.  The leading host operations make the input rows (the shared
  [64, 1024, 8] array reshaped) and the three transposes; the trailing ones slice the result into the network's
  output and the three parts of the Jacobian.
-/
import proofs.«113584_j55155970015481_2_alg».proof.Proof.KernelIdealFrame
import proofs.«113584_j55155970015481_2_alg».proof.Proof.Body
import proofs.«113584_j55155970015481_2_alg».proof.Proof.Payload
import proofs.«113584_j55155970015481_2_alg».proof.Proof.Spec
import proofs.«113584_j55155970015481_2_alg».proof.Proof.Glue
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.MlpJac

theorem hz2 : (![0, 0] : Fin 2 → Nat) = fun _ => 0 := funext fun a => by fin_cases a <;> rfl
theorem hz1 : (![0] : Fin 1 → Nat) = fun _ => 0 := funext fun a => by fin_cases a <;> rfl

section Generic
variable {F : FTy → Type} [FloatOps F]

/-- The one covering store of the whole block reads back as the stored value: the composed payloads. -/
theorem out_eq_bodyVal (x0 : Vec F S4096x8 .f32) (x1 : Vec F S256x8 .f32) (x2 : Vec F S8x256 .f32) (x3 : Vec F S256x256 .f32)
    (x4 : Vec F S256x256 .f32) (x5 : Vec F S6x256 .f32) (x6 : Vec F S256x6 .f32) (x7 : Vec F S256 .f32)
    (x8 : Vec F S256 .f32) (x9 : Vec F S6 .f32) :
    out0_10 x0 x1 x2 x3 x4 x5 x6 x7 x8 x9 = bodyVal x0 x1 x2 x3 x4 x5 x6 x7 x8 x9 := by
  unfold out0_10
  rw [View.canon_unit_zero hz2]
  simp only [View.ld_unit_zero (S := S4096x8) hz2, View.ld_unit_zero (S := S256x8) hz2, View.ld_unit_zero (S := S8x256) hz2,
    View.ld_unit_zero (S := S256x256) hz2, View.ld_unit_zero (S := S6x256) hz2, View.ld_unit_zero (S := S256x6) hz2,
    View.ld_unit_zero (S := S256) hz1, View.ld_unit_zero (S := S6) hz1]
  rfl

end Generic

variable (m : (ℓ : Loc nD τ sig) → Buf (Elt Ideal) ℓ) (ρ : Dev nD → PrngReg)

/-! ## The arrays the region finds -/

/-- The [64, 1024, 8] array of input rows: the six entries of y, then erate, then T. -/
def xcK (y : (⟨S64x1024x6, .f32⟩ : BufTy).Contents (Elt Ideal)) (e T : (⟨S64x1024, .f32⟩ : BufTy).Contents (Elt Ideal)) :
    (⟨S64x1024x8, .f32⟩ : BufTy).Contents (Elt Ideal) :=
  concatenate S64x1024x8 2 [⟨S64x1024x6, y⟩, ⟨S64x1024x1, broadcastInDim S64x1024x1 ![0, 1] bcast_S64x1024_S64x1024x1_0_1 e⟩, ⟨S64x1024x1, broadcastInDim S64x1024x1 ![0, 1] bcast_S64x1024_S64x1024x1_0_1 T⟩] concatenates_S64x1024x6_S64x1024x1_S64x1024x1_S64x1024x8_d2

theorem V_main_v3 (c : Dev nD) : (V m c main_v3 : S65536x8.Idx → EReal) =
    shapeCast S65536x8 (xcK (m ((c : Thread nD τ).loc main_arg1)) (m ((c : Thread nD τ).loc main_arg2)) (m ((c : Thread nD τ).loc main_arg3))) shapeCasts_S64x1024x8_S65536x8 := by
  show StableHlo.after hostOps0 (fun b => m (c, b)) (Proc.devRef .tc main_v3) = _
  after_results
  rfl

theorem V_main_v4 (c : Dev nD) : (V m c main_v4 : S8x256.Idx → EReal) =
    transpose S8x256 [1, 0] (m ((c : Thread nD τ).loc main_arg4)) transposes_S256x8_S8x256_1_0 := by
  show StableHlo.after hostOps0 (fun b => m (c, b)) (Proc.devRef .tc main_v4) = _
  after_results

theorem V_main_v5 (c : Dev nD) : (V m c main_v5 : S256x256.Idx → EReal) =
    transpose S256x256 [1, 0] (m ((c : Thread nD τ).loc main_arg5)) transposes_S256x256_S256x256_1_0 := by
  show StableHlo.after hostOps0 (fun b => m (c, b)) (Proc.devRef .tc main_v5) = _
  after_results

theorem V_main_v6 (c : Dev nD) : (V m c main_v6 : S256x6.Idx → EReal) =
    transpose S256x6 [1, 0] (m ((c : Thread nD τ).loc main_arg6)) transposes_S6x256_S256x6_1_0 := by
  show StableHlo.after hostOps0 (fun b => m (c, b)) (Proc.devRef .tc main_v6) = _
  after_results

/-! ## The windows' block indices over the grid -/

/-- The rows window and the result window sit at block `t` of the rows; every parameter window at block 0. -/
theorem idx_facts : ∀ t : Fin cfg0.N,
    win0_0.index t (0 : Fin 2) = t.val ∧ win0_0.index t (1 : Fin 2) = 0
    ∧ win0_10.index t (0 : Fin 2) = t.val ∧ win0_10.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0 ∧ win0_8.index t (0 : Fin 1) = 0 ∧ win0_9.index t (0 : Fin 1) = 0 :=
  (by decide +kernel : ∀ t : Fin grid0.N, _)

/-! ## The windows' blocks as entries of the region-entry arrays -/

/-- Row `p` of the rows block at point `t` is row `4096·t + p` of the input rows. -/
theorem iblk0_apply (c : Dev nD) (t : Fin cfg0.N) (p : Fin 4096) (k : Fin 8) (hr : 4096 * t.val + p.val < 65536) :
    (iblk m c 0 t : Vec Ideal S4096x8 .f32) (ix2 p k) = (V m c main_v3 : S65536x8.Idx → EReal) (ix2 ⟨4096 * t.val + p.val, hr⟩ k) := by
  obtain ⟨e00, e01, ea0, ea1, e10, e11, e20, e21, e30, e31, e40, e41, e50, e51, e60, e61, e7, e8, e9⟩ := idx_facts t
  unfold iblk
  rw [View.read_apply]
  show V m c main_v3 _ = V m c main_v3 _
  congr 1
  funext a
  apply Fin.ext
  match a with
  | ⟨0, _⟩ => show win0_0.index t 0 * 4096 + 1 * p.val = 4096 * t.val + p.val; rw [e00]; omega
  | ⟨1, _⟩ => show win0_0.index t 1 * 8 + 1 * k.val = k.val; rw [e01]; omega

/-- Window 1's block is its whole array. -/
theorem iblk1_apply (c : Dev nD) (t : Fin cfg0.N) (i : Fin 256) (j : Fin 8) :
    (iblk m c 1 t : Vec Ideal S256x8 .f32) (ix2 i j) = (V m c main_arg4 : S256x8.Idx → EReal) (ix2 i j) := by
  obtain ⟨e00, e01, ea0, ea1, e10, e11, e20, e21, e30, e31, e40, e41, e50, e51, e60, e61, e7, e8, e9⟩ := idx_facts t
  unfold iblk
  rw [View.read_apply]
  show V m c main_arg4 _ = V m c main_arg4 _
  congr 1
  funext a
  apply Fin.ext
  match a with
  | ⟨0, _⟩ => show win0_1.index t 0 * 256 + 1 * i.val = i.val; rw [e10]; omega
  | ⟨1, _⟩ => show win0_1.index t 1 * 8 + 1 * j.val = j.val; rw [e11]; omega
/-- Window 2's block is its whole array. -/
theorem iblk2_apply (c : Dev nD) (t : Fin cfg0.N) (i : Fin 8) (j : Fin 256) :
    (iblk m c 2 t : Vec Ideal S8x256 .f32) (ix2 i j) = (V m c main_v4 : S8x256.Idx → EReal) (ix2 i j) := by
  obtain ⟨e00, e01, ea0, ea1, e10, e11, e20, e21, e30, e31, e40, e41, e50, e51, e60, e61, e7, e8, e9⟩ := idx_facts t
  unfold iblk
  rw [View.read_apply]
  show V m c main_v4 _ = V m c main_v4 _
  congr 1
  funext a
  apply Fin.ext
  match a with
  | ⟨0, _⟩ => show win0_2.index t 0 * 8 + 1 * i.val = i.val; rw [e20]; omega
  | ⟨1, _⟩ => show win0_2.index t 1 * 256 + 1 * j.val = j.val; rw [e21]; omega
/-- Window 3's block is its whole array. -/
theorem iblk3_apply (c : Dev nD) (t : Fin cfg0.N) (i : Fin 256) (j : Fin 256) :
    (iblk m c 3 t : Vec Ideal S256x256 .f32) (ix2 i j) = (V m c main_arg5 : S256x256.Idx → EReal) (ix2 i j) := by
  obtain ⟨e00, e01, ea0, ea1, e10, e11, e20, e21, e30, e31, e40, e41, e50, e51, e60, e61, e7, e8, e9⟩ := idx_facts t
  unfold iblk
  rw [View.read_apply]
  show V m c main_arg5 _ = V m c main_arg5 _
  congr 1
  funext a
  apply Fin.ext
  match a with
  | ⟨0, _⟩ => show win0_3.index t 0 * 256 + 1 * i.val = i.val; rw [e30]; omega
  | ⟨1, _⟩ => show win0_3.index t 1 * 256 + 1 * j.val = j.val; rw [e31]; omega
/-- Window 4's block is its whole array. -/
theorem iblk4_apply (c : Dev nD) (t : Fin cfg0.N) (i : Fin 256) (j : Fin 256) :
    (iblk m c 4 t : Vec Ideal S256x256 .f32) (ix2 i j) = (V m c main_v5 : S256x256.Idx → EReal) (ix2 i j) := by
  obtain ⟨e00, e01, ea0, ea1, e10, e11, e20, e21, e30, e31, e40, e41, e50, e51, e60, e61, e7, e8, e9⟩ := idx_facts t
  unfold iblk
  rw [View.read_apply]
  show V m c main_v5 _ = V m c main_v5 _
  congr 1
  funext a
  apply Fin.ext
  match a with
  | ⟨0, _⟩ => show win0_4.index t 0 * 256 + 1 * i.val = i.val; rw [e40]; omega
  | ⟨1, _⟩ => show win0_4.index t 1 * 256 + 1 * j.val = j.val; rw [e41]; omega
/-- Window 5's block is its whole array. -/
theorem iblk5_apply (c : Dev nD) (t : Fin cfg0.N) (i : Fin 6) (j : Fin 256) :
    (iblk m c 5 t : Vec Ideal S6x256 .f32) (ix2 i j) = (V m c main_arg6 : S6x256.Idx → EReal) (ix2 i j) := by
  obtain ⟨e00, e01, ea0, ea1, e10, e11, e20, e21, e30, e31, e40, e41, e50, e51, e60, e61, e7, e8, e9⟩ := idx_facts t
  unfold iblk
  rw [View.read_apply]
  show V m c main_arg6 _ = V m c main_arg6 _
  congr 1
  funext a
  apply Fin.ext
  match a with
  | ⟨0, _⟩ => show win0_5.index t 0 * 6 + 1 * i.val = i.val; rw [e50]; omega
  | ⟨1, _⟩ => show win0_5.index t 1 * 256 + 1 * j.val = j.val; rw [e51]; omega
/-- Window 6's block is its whole array. -/
theorem iblk6_apply (c : Dev nD) (t : Fin cfg0.N) (i : Fin 256) (j : Fin 6) :
    (iblk m c 6 t : Vec Ideal S256x6 .f32) (ix2 i j) = (V m c main_v6 : S256x6.Idx → EReal) (ix2 i j) := by
  obtain ⟨e00, e01, ea0, ea1, e10, e11, e20, e21, e30, e31, e40, e41, e50, e51, e60, e61, e7, e8, e9⟩ := idx_facts t
  unfold iblk
  rw [View.read_apply]
  show V m c main_v6 _ = V m c main_v6 _
  congr 1
  funext a
  apply Fin.ext
  match a with
  | ⟨0, _⟩ => show win0_6.index t 0 * 256 + 1 * i.val = i.val; rw [e60]; omega
  | ⟨1, _⟩ => show win0_6.index t 1 * 6 + 1 * j.val = j.val; rw [e61]; omega

/-- Window 7's block is its whole array. -/
theorem iblk7_apply (c : Dev nD) (t : Fin cfg0.N) (i : Fin 256) :
    (iblk m c 7 t : Vec Ideal S256 .f32) (ix1 i) = (V m c main_arg7 : S256.Idx → EReal) (ix1 i) := by
  obtain ⟨e00, e01, ea0, ea1, e10, e11, e20, e21, e30, e31, e40, e41, e50, e51, e60, e61, e7, e8, e9⟩ := idx_facts t
  unfold iblk
  rw [View.read_apply]
  show V m c main_arg7 _ = V m c main_arg7 _
  congr 1
  funext a
  apply Fin.ext
  match a with
  | ⟨0, _⟩ => show win0_7.index t 0 * 256 + 1 * i.val = i.val; rw [e7]; omega
/-- Window 8's block is its whole array. -/
theorem iblk8_apply (c : Dev nD) (t : Fin cfg0.N) (i : Fin 256) :
    (iblk m c 8 t : Vec Ideal S256 .f32) (ix1 i) = (V m c main_arg8 : S256.Idx → EReal) (ix1 i) := by
  obtain ⟨e00, e01, ea0, ea1, e10, e11, e20, e21, e30, e31, e40, e41, e50, e51, e60, e61, e7, e8, e9⟩ := idx_facts t
  unfold iblk
  rw [View.read_apply]
  show V m c main_arg8 _ = V m c main_arg8 _
  congr 1
  funext a
  apply Fin.ext
  match a with
  | ⟨0, _⟩ => show win0_8.index t 0 * 256 + 1 * i.val = i.val; rw [e8]; omega
/-- Window 9's block is its whole array. -/
theorem iblk9_apply (c : Dev nD) (t : Fin cfg0.N) (i : Fin 6) :
    (iblk m c 9 t : Vec Ideal S6 .f32) (ix1 i) = (V m c main_arg9 : S6.Idx → EReal) (ix1 i) := by
  obtain ⟨e00, e01, ea0, ea1, e10, e11, e20, e21, e30, e31, e40, e41, e50, e51, e60, e61, e7, e8, e9⟩ := idx_facts t
  unfold iblk
  rw [View.read_apply]
  show V m c main_arg9 _ = V m c main_arg9 _
  congr 1
  funext a
  apply Fin.ext
  match a with
  | ⟨0, _⟩ => show win0_9.index t 0 * 6 + 1 * i.val = i.val; rw [e9]; omega

/-! ## The result array as one function of the region-entry arrays -/

/-- Row `r` of the result: the network's output and Jacobian at row `r` of the input rows `X`, through the parameter
    arrays and their transposes as the region finds them. -/
def Gof (X : S65536x8.Idx → EReal) (A1 : S256x8.Idx → EReal) (A2 : S8x256.Idx → EReal) (A3 A4 : S256x256.Idx → EReal) (A5 : S6x256.Idx → EReal) (A6 : S256x6.Idx → EReal) (A7 A8 : S256.Idx → EReal) (A9 : S6.Idx → EReal) : S65536x54.Idx → EReal := fun i =>
  row54 (ydotK (fun k => X (ix2 (⟨(i 0).val, (i 0).isLt⟩ : Fin 65536) k)) (fun k h => A2 (ix2 k h)) (fun k h => A4 (ix2 k h)) (fun k i' => A6 (ix2 k i')) (fun h => A7 (ix1 h)) (fun h => A8 (ix1 h)) (fun i' => A9 (ix1 i')))
    (jacK (fun k => X (ix2 (⟨(i 0).val, (i 0).isLt⟩ : Fin 65536) k)) (fun h k => A1 (ix2 h k)) (fun k h => A2 (ix2 k h)) (fun h j => A3 (ix2 h j)) (fun k h => A4 (ix2 k h)) (fun i' h => A5 (ix2 i' h)) (fun h => A7 (ix1 h)) (fun h => A8 (ix1 h)))
    (⟨(i 1).val, (i 1).isLt⟩ : Fin 54)

theorem Gof_apply (X : S65536x8.Idx → EReal) (A1 : S256x8.Idx → EReal) (A2 : S8x256.Idx → EReal) (A3 A4 : S256x256.Idx → EReal) (A5 : S6x256.Idx → EReal) (A6 : S256x6.Idx → EReal) (A7 A8 : S256.Idx → EReal) (A9 : S6.Idx → EReal) (r : Fin 65536) (j : Fin 54) :
    Gof X A1 A2 A3 A4 A5 A6 A7 A8 A9 (ix2 r j) = row54 (ydotK (fun k => X (ix2 r k)) (fun k h => A2 (ix2 k h)) (fun k h => A4 (ix2 k h)) (fun k i' => A6 (ix2 k i')) (fun h => A7 (ix1 h)) (fun h => A8 (ix1 h)) (fun i' => A9 (ix1 i')))
      (jacK (fun k => X (ix2 r k)) (fun h k => A1 (ix2 h k)) (fun k h => A2 (ix2 k h)) (fun h j => A3 (ix2 h j)) (fun k h => A4 (ix2 k h)) (fun i' h => A5 (ix2 i' h)) (fun h => A7 (ix1 h)) (fun h => A8 (ix1 h))) j := rfl

/-- A block whose entries are entries of the arrays — row `p` of the rows block row `r` of `X`, the parameter blocks the
    parameter arrays — stores at `(p, j)` what the result function holds at `(r, j)`. -/
theorem block_eq (x0 : Vec Ideal S4096x8 .f32) (x1 : Vec Ideal S256x8 .f32) (x2 : Vec Ideal S8x256 .f32) (x3 : Vec Ideal S256x256 .f32) (x4 : Vec Ideal S256x256 .f32) (x5 : Vec Ideal S6x256 .f32) (x6 : Vec Ideal S256x6 .f32) (x7 : Vec Ideal S256 .f32) (x8 : Vec Ideal S256 .f32) (x9 : Vec Ideal S6 .f32) (X : S65536x8.Idx → EReal) (A1 : S256x8.Idx → EReal) (A2 : S8x256.Idx → EReal) (A3 A4 : S256x256.Idx → EReal) (A5 : S6x256.Idx → EReal) (A6 : S256x6.Idx → EReal) (A7 A8 : S256.Idx → EReal) (A9 : S6.Idx → EReal)
    (p : Fin 4096) (j : Fin 54) (r : Fin 65536)
    (h0 : ∀ k : Fin 8, x0 (ix2 p k) = X (ix2 r k)) (h1 : ∀ (h : Fin 256) (k : Fin 8), x1 (ix2 h k) = A1 (ix2 h k))
    (h2 : ∀ (k : Fin 8) (h : Fin 256), x2 (ix2 k h) = A2 (ix2 k h)) (h3 : ∀ (h k : Fin 256), x3 (ix2 h k) = A3 (ix2 h k))
    (h4 : ∀ (h k : Fin 256), x4 (ix2 h k) = A4 (ix2 h k)) (h5 : ∀ (i : Fin 6) (h : Fin 256), x5 (ix2 i h) = A5 (ix2 i h))
    (h6 : ∀ (h : Fin 256) (i : Fin 6), x6 (ix2 h i) = A6 (ix2 h i)) (h7 : ∀ h : Fin 256, x7 (ix1 h) = A7 (ix1 h))
    (h8 : ∀ h : Fin 256, x8 (ix1 h) = A8 (ix1 h)) (h9 : ∀ i : Fin 6, x9 (ix1 i) = A9 (ix1 i))
    (I : S65536x54.Idx) (hI0 : (I 0).val = r.val) (hI1 : (I 1).val = j.val) :
    bodyVal x0 x1 x2 x3 x4 x5 x6 x7 x8 x9 (ix2 p j) = Gof X A1 A2 A3 A4 A5 A6 A7 A8 A9 I := by
  have hI : I = ix2 r j := by
    funext a
    match a with
    | ⟨0, _⟩ => exact Fin.ext hI0
    | ⟨1, _⟩ => exact Fin.ext hI1
  subst hI
  rw [bodyVal_apply, Gof_apply]
  simp only [h0, h1, h2, h3, h4, h5, h6, h7, h8, h9]

/-- The result function of the arrays the region finds on core `c`. -/
def Gent (c : Dev nD) : S65536x54.Idx → EReal := Gof (V m c main_v3) (V m c main_arg4) (V m c main_v4) (V m c main_arg5) (V m c main_v5) (V m c main_arg6) (V m c main_v6) (V m c main_arg7) (V m c main_arg8) (V m c main_arg9)

/-- What point `t` writes back is block `t` of the result function. -/
theorem flushed_eq (c : Dev nD) (t : Fin cfg0.N) :
    (dats m 0 c).flushed 10 t = ((cfg0.win 10).blk t).view.read (Elt Ideal) (Gent m c) := by
  have hN : cfg0.N = 16 := N_0
  have ht : t.val < 16 := hN ▸ t.isLt
  obtain ⟨e00, e01, ea0, ea1, e10, e11, e20, e21, e30, e31, e40, e41, e50, e51, e60, e61, e7, e8, e9⟩ := idx_facts t
  show (cfg0.win 10).cut (grid0.coords t) ((dats m 0 c).after 10 t) = _
  rw [after0_10, out_eq_bodyVal]
  funext y
  obtain ⟨p, j, rfl⟩ : ∃ (p : Fin 4096) (j : Fin 54), y = ix2 p j := ⟨y 0, y 1, eq_ix2 y⟩
  rw [View.read_apply]
  have hp : p.val < 4096 := p.isLt
  refine block_eq (iblk m c 0 t) (iblk m c 1 t) (iblk m c 2 t) (iblk m c 3 t) (iblk m c 4 t) (iblk m c 5 t) (iblk m c 6 t) (iblk m c 7 t) (iblk m c 8 t) (iblk m c 9 t)
    (V m c main_v3) (V m c main_arg4) (V m c main_v4) (V m c main_arg5) (V m c main_v5) (V m c main_arg6) (V m c main_v6) (V m c main_arg7) (V m c main_arg8) (V m c main_arg9)
    p j ⟨4096 * t.val + p.val, by omega⟩
    (fun k => iblk0_apply m c t p k (by omega)) (fun h k => iblk1_apply m c t h k) (fun k h => iblk2_apply m c t k h) (fun h k => iblk3_apply m c t h k)
    (fun h k => iblk4_apply m c t h k) (fun i h => iblk5_apply m c t i h) (fun h i => iblk6_apply m c t h i) (fun h => iblk7_apply m c t h)
    (fun h => iblk8_apply m c t h) (fun i => iblk9_apply m c t i) _ ?_ ?_
  · show win0_10.index t 0 * 4096 + 1 * p.val = 4096 * t.val + p.val; rw [ea0]; omega
  · show win0_10.index t 1 * 54 + 1 * j.val = j.val; rw [ea1]; omega

/-- An index is in point `t`'s block iff each coordinate is in the block's range. -/
theorem mem_blk10 (t : Fin cfg0.N) (i : S65536x54.Idx) :
    i ∈ ((cfg0.win 10).blk t).view.set ↔ ∀ a : Fin 2, win0_10.index t a * S4096x54.size a ≤ (i a).val ∧ (i a).val < win0_10.index t a * S4096x54.size a + S4096x54.size a := by
  show i ∈ ((View.whole main_v7).slice (win0_10.rect t)).set ↔ _
  rw [View.set_slice_whole, Rect.mem_set_unit]
  exact Iff.rfl

/-- The sixteen blocks cover the result: row `r` is in block `r / 4096`. -/
theorem cover10 (i : S65536x54.Idx) : ∃ t : Fin cfg0.N, (cfg0.win 10).flush t = true ∧ i ∈ ((cfg0.win 10).blk t).view.set := by
  have hN : cfg0.N = 16 := N_0
  have hi0 : (i 0).val < 65536 := (i 0).isLt
  have hi1 : (i 1).val < 54 := (i 1).isLt
  have hq : (i 0).val / 4096 < cfg0.N := by rw [hN]; omega
  refine ⟨⟨(i 0).val / 4096, hq⟩, flush0_10 _, ?_⟩
  rw [mem_blk10]
  obtain ⟨e00, e01, ea0, ea1, e10, e11, e20, e21, e30, e31, e40, e41, e50, e51, e60, e61, e7, e8, e9⟩ := idx_facts ⟨(i 0).val / 4096, hq⟩
  intro a
  match a with
  | ⟨0, _⟩ =>
    show win0_10.index ⟨(i 0).val / 4096, hq⟩ 0 * 4096 ≤ (i 0).val ∧ (i 0).val < win0_10.index ⟨(i 0).val / 4096, hq⟩ 0 * 4096 + 4096
    rw [ea0]; show (i 0).val / 4096 * 4096 ≤ (i 0).val ∧ (i 0).val < (i 0).val / 4096 * 4096 + 4096; omega
  | ⟨1, _⟩ =>
    show win0_10.index ⟨(i 0).val / 4096, hq⟩ 1 * 54 ≤ (i 1).val ∧ (i 1).val < win0_10.index ⟨(i 0).val / 4096, hq⟩ 1 * 54 + 54
    rw [ea1]; omega

/-- The result array after the run is the result function of the region-entry arrays. -/
theorem final10 (c : Dev nD) : (dats m 0 c).arrAt 10 cfg0.N = Gent m c :=
  (dats m 0 c).arrAt_eq_of_cover 10 (Gent m c) (fun t _ => flushed_eq m c t) (cover10)

/-! ## The result function in the specification's terms -/

/-- At row `a·1024 + b` the result function of arrays that are the input rows reshaped, the parameters and their
    transposes is the reference-form output and Jacobian of row `(a, b)`: the kernel's form and the reference's are
    one function. -/
theorem Gof_ref (X : S65536x8.Idx → EReal) (A1 : S256x8.Idx → EReal) (A2 : S8x256.Idx → EReal) (A3 A4 : S256x256.Idx → EReal) (A5 : S6x256.Idx → EReal) (A6 : S256x6.Idx → EReal) (A7 A8 : S256.Idx → EReal) (A9 : S6.Idx → EReal) (XC : S64x1024x8.Idx → EReal) (W1 : S256x8.Idx → EReal) (W2 : S256x256.Idx → EReal) (W3 : S6x256.Idx → EReal) (B1 B2 : S256.Idx → EReal) (B3 : S6.Idx → EReal)
    (a : Fin 64) (b : Fin 1024) (hr : a.val * 1024 + b.val < 65536)
    (hX : ∀ k : Fin 8, X (ix2 ⟨a.val * 1024 + b.val, hr⟩ k) = XC (ix3 a b k))
    (h1 : A1 = W1) (h2 : ∀ (k : Fin 8) (h : Fin 256), A2 (ix2 k h) = W1 (ix2 h k))
    (h3 : A3 = W2) (h4 : ∀ (k h : Fin 256), A4 (ix2 k h) = W2 (ix2 h k))
    (h5 : A5 = W3) (h6 : ∀ (h : Fin 256) (i : Fin 6), A6 (ix2 h i) = W3 (ix2 i h))
    (h7 : A7 = B1) (h8 : A8 = B2) (h9 : A9 = B3) (j : Fin 54) :
    Gof X A1 A2 A3 A4 A5 A6 A7 A8 A9 (ix2 ⟨a.val * 1024 + b.val, hr⟩ j)
      = row54 (ydotAt XC W1 W2 W3 B1 B2 B3 a b) (jacAt XC W1 W2 W3 B1 B2 a b) j := by
  subst h1 h3 h5 h7 h8 h9
  rw [Gof_apply]
  simp only [hX, h2, h4, h6]
  have e1 : ydotAt XC A1 A3 A5 A7 A8 A9 a b = ydotK (xrow XC a b) (fun k h => w1f A1 h k) (fun k h => w2f A3 h k) (fun k i => w3f A5 i k) (b1f A7) (b1f A8) (b3f A9) := by
    funext i; unfold ydotAt; rw [← ydotK_eq]
  have e2 : jacAt XC A1 A3 A5 A7 A8 a b = jacK (xrow XC a b) (w1f A1) (fun k h => w1f A1 h k) (w2f A3) (fun k h => w2f A3 h k) (w3f A5) (b1f A7) (b1f A8) := by
    funext i k; unfold jacAt; rw [← jacK_eq]
  rw [e1, e2]
  rfl

/-! ## The four results -/

theorem tail_v9 (c : Dev nD) (a : Fin 64) (b : Fin 1024) (i : Fin 6) (hr : a.val * 1024 + b.val < 65536) (hc : i.val < 54) :
    (Pipeline.afterTail₀ cfgs (dats m) 0 (V0 m) [hostOps1] c main_v9 : S64x1024x6.Idx → EReal) (ix3 a b i)
      = Gent m c (ix2 ⟨a.val * 1024 + b.val, hr⟩ ⟨i.val, hc⟩) := by
  unfold Pipeline.afterTail₀
  show (StableHlo.after hostOps1 (Pipeline.withArrays spec0 c (V0 m c) fun w => (dats m 0 c).arrAt w cfg0.N) (Proc.devRef .tc main_v9) : S64x1024x6.Idx → EReal) (ix3 a b i) = _
  after_results
  refine (Glue.res0_apply _ a b i hr hc).trans ?_
  exact congrFun ((Pipeline.withArrays_arr spec0 launch0.win.arr_inj c _ _ 10).trans (final10 m c)) _

theorem tail_v12 (c : Dev nD) (a : Fin 64) (b : Fin 1024) (i k : Fin 6) (hr : a.val * 1024 + b.val < 65536) (hc : 6 + (8 * i.val + k.val) < 54) :
    (Pipeline.afterTail₀ cfgs (dats m) 0 (V0 m) [hostOps1] c main_v12 : S64x1024x6x6.Idx → EReal) (ix4 a b i k)
      = Gent m c (ix2 ⟨a.val * 1024 + b.val, hr⟩ ⟨6 + (8 * i.val + k.val), hc⟩) := by
  unfold Pipeline.afterTail₀
  show (StableHlo.after hostOps1 (Pipeline.withArrays spec0 c (V0 m c) fun w => (dats m 0 c).arrAt w cfg0.N) (Proc.devRef .tc main_v12) : S64x1024x6x6.Idx → EReal) (ix4 a b i k) = _
  after_results
  refine (Glue.res1_apply _ a b i k hr hc).trans ?_
  exact congrFun ((Pipeline.withArrays_arr spec0 launch0.win.arr_inj c _ _ 10).trans (final10 m c)) _

theorem tail_v14 (c : Dev nD) (a : Fin 64) (b : Fin 1024) (i : Fin 6) (hr : a.val * 1024 + b.val < 65536) (hc : 6 + (8 * i.val + 6) < 54) :
    (Pipeline.afterTail₀ cfgs (dats m) 0 (V0 m) [hostOps1] c main_v14 : S64x1024x6.Idx → EReal) (ix3 a b i)
      = Gent m c (ix2 ⟨a.val * 1024 + b.val, hr⟩ ⟨6 + (8 * i.val + 6), hc⟩) := by
  unfold Pipeline.afterTail₀
  show (StableHlo.after hostOps1 (Pipeline.withArrays spec0 c (V0 m c) fun w => (dats m 0 c).arrAt w cfg0.N) (Proc.devRef .tc main_v14) : S64x1024x6.Idx → EReal) (ix3 a b i) = _
  after_results
  refine (Glue.res2_apply _ a b i hr hc).trans ?_
  exact congrFun ((Pipeline.withArrays_arr spec0 launch0.win.arr_inj c _ _ 10).trans (final10 m c)) _

theorem tail_v16 (c : Dev nD) (a : Fin 64) (b : Fin 1024) (i : Fin 6) (hr : a.val * 1024 + b.val < 65536) (hc : 6 + (8 * i.val + 7) < 54) :
    (Pipeline.afterTail₀ cfgs (dats m) 0 (V0 m) [hostOps1] c main_v16 : S64x1024x6.Idx → EReal) (ix3 a b i)
      = Gent m c (ix2 ⟨a.val * 1024 + b.val, hr⟩ ⟨6 + (8 * i.val + 7), hc⟩) := by
  unfold Pipeline.afterTail₀
  show (StableHlo.after hostOps1 (Pipeline.withArrays spec0 c (V0 m c) fun w => (dats m 0 c).arrAt w cfg0.N) (Proc.devRef .tc main_v16) : S64x1024x6.Idx → EReal) (ix3 a b i) = _
  after_results
  refine (Glue.res3_apply _ a b i hr hc).trans ?_
  exact congrFun ((Pipeline.withArrays_arr spec0 launch0.win.arr_inj c _ _ 10).trans (final10 m c)) _

/-- The network's output. -/
theorem result0 (c : Dev nD) :
    (Pipeline.afterTail₀ cfgs (dats m) 0 (V0 m) [hostOps1] c main_v9 : S64x1024x6.Idx → EReal)
      = res0 (xcK (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext j
  obtain ⟨a, b, i, rfl⟩ : ∃ (a : Fin 64) (b : Fin 1024) (i : Fin 6), j = ix3 a b i := ⟨j 0, j 1, j 2, eq_ix3 j⟩
  have hr : a.val * 1024 + b.val < 65536 := Glue.row_lt a b
  have hc : i.val < 54 := by have := i.isLt; omega
  rw [tail_v9 m c a b i hr hc, res0_apply]
  unfold Gent
  rw [Gof_ref (V m c main_v3) (V m c main_arg4) (V m c main_v4) (V m c main_arg5) (V m c main_v5) (V m c main_arg6) (V m c main_v6) (V m c main_arg7) (V m c main_arg8) (V m c main_arg9) (xcK (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) a b hr
    (fun k => by rw [V_main_v3]; exact Glue.rows_apply _ a b k hr) (V_main_arg4 m c) (fun k h => by rw [V_main_v4]; exact Glue.w1T_apply _ k h)
    (V_main_arg5 m c) (fun k h => by rw [V_main_v5]; exact Glue.w2T_apply _ k h) (V_main_arg6 m c) (fun h i => by rw [V_main_v6]; exact Glue.w3T_apply _ h i)
    (V_main_arg7 m c) (V_main_arg8 m c) (V_main_arg9 m c)]
  exact row54_left _ _ i hc

/-- The Jacobian with respect to the first six features. -/
theorem result1 (c : Dev nD) :
    (Pipeline.afterTail₀ cfgs (dats m) 0 (V0 m) [hostOps1] c main_v12 : S64x1024x6x6.Idx → EReal)
      = res1 (xcK (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)) := by
  funext j
  obtain ⟨a, b, i, k, rfl⟩ : ∃ (a : Fin 64) (b : Fin 1024) (i k : Fin 6), j = ix4 a b i k := ⟨j 0, j 1, j 2, j 3, eq_ix4 j⟩
  have hr : a.val * 1024 + b.val < 65536 := Glue.row_lt a b
  have hc : 6 + (8 * i.val + k.val) < 54 := by have := i.isLt; have := k.isLt; omega
  rw [tail_v12 m c a b i k hr hc, res1_apply]
  unfold Gent
  rw [Gof_ref (V m c main_v3) (V m c main_arg4) (V m c main_v4) (V m c main_arg5) (V m c main_v5) (V m c main_arg6) (V m c main_v6) (V m c main_arg7) (V m c main_arg8) (V m c main_arg9) (xcK (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) a b hr
    (fun k => by rw [V_main_v3]; exact Glue.rows_apply _ a b k hr) (V_main_arg4 m c) (fun k h => by rw [V_main_v4]; exact Glue.w1T_apply _ k h)
    (V_main_arg5 m c) (fun k h => by rw [V_main_v5]; exact Glue.w2T_apply _ k h) (V_main_arg6 m c) (fun h i => by rw [V_main_v6]; exact Glue.w3T_apply _ h i)
    (V_main_arg7 m c) (V_main_arg8 m c) (V_main_arg9 m c)]
  exact row54_right _ _ i (Fin.castLE (by decide) k) hc

/-- The Jacobian with respect to feature 6. -/
theorem result2 (c : Dev nD) :
    (Pipeline.afterTail₀ cfgs (dats m) 0 (V0 m) [hostOps1] c main_v14 : S64x1024x6.Idx → EReal)
      = res2 (xcK (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)) := by
  funext j
  obtain ⟨a, b, i, rfl⟩ : ∃ (a : Fin 64) (b : Fin 1024) (i : Fin 6), j = ix3 a b i := ⟨j 0, j 1, j 2, eq_ix3 j⟩
  have hr : a.val * 1024 + b.val < 65536 := Glue.row_lt a b
  have hc : 6 + (8 * i.val + 6) < 54 := by have := i.isLt; omega
  rw [tail_v14 m c a b i hr hc, res2_apply]
  unfold Gent
  rw [Gof_ref (V m c main_v3) (V m c main_arg4) (V m c main_v4) (V m c main_arg5) (V m c main_v5) (V m c main_arg6) (V m c main_v6) (V m c main_arg7) (V m c main_arg8) (V m c main_arg9) (xcK (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) a b hr
    (fun k => by rw [V_main_v3]; exact Glue.rows_apply _ a b k hr) (V_main_arg4 m c) (fun k h => by rw [V_main_v4]; exact Glue.w1T_apply _ k h)
    (V_main_arg5 m c) (fun k h => by rw [V_main_v5]; exact Glue.w2T_apply _ k h) (V_main_arg6 m c) (fun h i => by rw [V_main_v6]; exact Glue.w3T_apply _ h i)
    (V_main_arg7 m c) (V_main_arg8 m c) (V_main_arg9 m c)]
  exact row54_right _ _ i 6 hc

/-- The Jacobian with respect to feature 7. -/
theorem result3 (c : Dev nD) :
    (Pipeline.afterTail₀ cfgs (dats m) 0 (V0 m) [hostOps1] c main_v16 : S64x1024x6.Idx → EReal)
      = res3 (xcK (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)) := by
  funext j
  obtain ⟨a, b, i, rfl⟩ : ∃ (a : Fin 64) (b : Fin 1024) (i : Fin 6), j = ix3 a b i := ⟨j 0, j 1, j 2, eq_ix3 j⟩
  have hr : a.val * 1024 + b.val < 65536 := Glue.row_lt a b
  have hc : 6 + (8 * i.val + 7) < 54 := by have := i.isLt; omega
  rw [tail_v16 m c a b i hr hc, res3_apply]
  unfold Gent
  rw [Gof_ref (V m c main_v3) (V m c main_arg4) (V m c main_v4) (V m c main_arg5) (V m c main_v5) (V m c main_arg6) (V m c main_v6) (V m c main_arg7) (V m c main_arg8) (V m c main_arg9) (xcK (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) a b hr
    (fun k => by rw [V_main_v3]; exact Glue.rows_apply _ a b k hr) (V_main_arg4 m c) (fun k h => by rw [V_main_v4]; exact Glue.w1T_apply _ k h)
    (V_main_arg5 m c) (fun k h => by rw [V_main_v5]; exact Glue.w2T_apply _ k h) (V_main_arg6 m c) (fun h i => by rw [V_main_v6]; exact Glue.w3T_apply _ h i)
    (V_main_arg7 m c) (V_main_arg8 m c) (V_main_arg9 m c)]
  exact row54_right _ _ i 7 hc

/-! ## The run, read -/

/-- Every weakly fair execution of the kernel program terminates with the four results at the specification's arrays
    of the argument arrays, and the arguments unchanged. -/
theorem run_spec : θ_run defs (onTc (τ := τ) (main (F := Ideal))) ⟨m, fun _ => 0, ρ⟩ fun r => ∀ c : Dev nD,
      r.2.mem ((c : Thread nD τ).loc main_v9) = res0 (xcK (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v12) = res1 (xcK (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v14) = res2 (xcK (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v16) = res3 (xcK (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨
      ((h c).2 main_v9 (Pipeline.mem_restRefs_of main_v9 (by decide) (by decide))).trans (result0 m c),
      ((h c).2 main_v12 (Pipeline.mem_restRefs_of main_v12 (by decide) (by decide))).trans (result1 m c),
      ((h c).2 main_v14 (Pipeline.mem_restRefs_of main_v14 (by decide) (by decide))).trans (result2 m c),
      ((h c).2 main_v16 (Pipeline.mem_restRefs_of main_v16 (by decide) (by decide))).trans (result3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).1 3).trans (((dats m 0 c).arrAt_in 3 rfl _).trans ((A_eq m c 3).trans (V_main_arg5 m c))),
      ((h c).1 5).trans (((dats m 0 c).arrAt_in 5 rfl _).trans ((A_eq m c 5).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩)
    (run_main m ρ)

end Cert.KernelIdeal.Hand

end
-- ==== Proof.RefValueFwd.lean ====
/-
  The reference program's forward path read at an index: each stage of the three-layer network, at row (a, b) and
  unit h, is the corresponding row function of the specification applied to row (a, b) of the input array.
-/
import proofs.«113584_j55155970015481_2_alg».proof.Proof.Gen.ReferenceIdeal.Read
import proofs.«113584_j55155970015481_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx Cert.MlpJac

/-- Comparing with zero and converting the bit to a number is the ReLU mask. -/
theorem mask_eq (z : EReal) :
    (FloatOps.uitofp (F := Ideal) .f32 (FloatOps.cmpf (F := Ideal) (φ := .f32) .ogt z (Ideal.ofBits .f32 0x00000000#32)) : EReal) = mask z := by
  rw [Ideal.ofBits_zero_f32]
  show (((Ideal.cmp .ogt z 0).toNat : ℝ) : EReal) = mask z
  unfold mask Ideal.cmp
  by_cases h : (0 : EReal) < z
  · simp [h]
  · simp [h]

/-! ### The operand indices of the forward path, by coordinates -/

theorem lidx_v3_ix (a : Fin 64) (b : Fin 1024) (h : Fin 256) (k : Fin 8) :
    lidx_main_v3 (ix3 a b h) k = ix3 a b k :=
  funext fun d => by match d with | ⟨0, _⟩ => rfl | ⟨1, _⟩ => rfl | ⟨2, _⟩ => rfl
theorem ridx_v3_ix (a : Fin 64) (b : Fin 1024) (h : Fin 256) (k : Fin 8) :
    ridx_main_v3 (ix3 a b h) k = ix2 h k :=
  funext fun d => by match d with | ⟨0, _⟩ => rfl | ⟨1, _⟩ => rfl
theorem idx_v5_ix (a : Fin 64) (b : Fin 1024) (h : Fin 256) :
    idx_main_v4 (idx_main_v5 (ix3 a b h)) = ix1 h :=
  funext fun d => by match d with | ⟨0, _⟩ => rfl
theorem lidx_v8_ix (a : Fin 64) (b : Fin 1024) (h : Fin 256) (k : Fin 256) :
    lidx_main_v8 (ix3 a b h) k = ix3 a b k :=
  funext fun d => by match d with | ⟨0, _⟩ => rfl | ⟨1, _⟩ => rfl | ⟨2, _⟩ => rfl
theorem ridx_v8_ix (a : Fin 64) (b : Fin 1024) (h : Fin 256) (k : Fin 256) :
    ridx_main_v8 (ix3 a b h) k = ix2 h k :=
  funext fun d => by match d with | ⟨0, _⟩ => rfl | ⟨1, _⟩ => rfl
theorem idx_v10_ix (a : Fin 64) (b : Fin 1024) (h : Fin 256) :
    idx_main_v9 (idx_main_v10 (ix3 a b h)) = ix1 h :=
  funext fun d => by match d with | ⟨0, _⟩ => rfl
theorem lidx_v13_ix (a : Fin 64) (b : Fin 1024) (i : Fin 6) (k : Fin 256) :
    lidx_main_v13 (ix3 a b i) k = ix3 a b k :=
  funext fun d => by match d with | ⟨0, _⟩ => rfl | ⟨1, _⟩ => rfl | ⟨2, _⟩ => rfl
theorem ridx_v13_ix (a : Fin 64) (b : Fin 1024) (i : Fin 6) (k : Fin 256) :
    ridx_main_v13 (ix3 a b i) k = ix2 i k :=
  funext fun d => by match d with | ⟨0, _⟩ => rfl | ⟨1, _⟩ => rfl
theorem idx_v15_ix (a : Fin 64) (b : Fin 1024) (i : Fin 6) :
    idx_main_v14 (idx_main_v15 (ix3 a b i)) = ix1 i :=
  funext fun d => by match d with | ⟨0, _⟩ => rfl

section Stages

variable (x1 : (⟨S64x1024x6, .f32⟩ : BufTy).Contents (Elt Ideal)) (x2 x3 : (⟨S64x1024, .f32⟩ : BufTy).Contents (Elt Ideal))
  (x4 : (⟨S256x8, .f32⟩ : BufTy).Contents (Elt Ideal)) (x5 : (⟨S256x256, .f32⟩ : BufTy).Contents (Elt Ideal))
  (x6 : (⟨S6x256, .f32⟩ : BufTy).Contents (Elt Ideal)) (x7 x8 : (⟨S256, .f32⟩ : BufTy).Contents (Elt Ideal))
  (x9 : (⟨S6, .f32⟩ : BufTy).Contents (Elt Ideal))

/-- The first layer before its ReLU: z₁ = W₁ x + b₁ at row (a, b). -/
theorem v6_at (a : Fin 64) (b : Fin 1024) (h : Fin 256) :
    val_main_v6 (F := Ideal) x1 x2 x3 x4 x7 (ix3 a b h)
      = z1R (xrow (val_main_v2 (F := Ideal) x1 x2 x3) a b) (w1f x4) (b1f x7) h := by
  rw [val_main_v6_apply, val_main_v3_apply, val_main_v5_apply, val_main_v4_apply, idx_v5_ix]
  rw [Finset.sum_congr rfl fun k _ => by rw [lidx_v3_ix, ridx_v3_ix]]
  rfl

/-- The first layer: v₁ = max z₁ 0. -/
theorem v7_at (a : Fin 64) (b : Fin 1024) (h : Fin 256) :
    val_main_v7 (F := Ideal) x1 x2 x3 x4 x7 (ix3 a b h)
      = v1R (xrow (val_main_v2 (F := Ideal) x1 x2 x3) a b) (w1f x4) (b1f x7) h := by
  rw [val_main_v7_apply, v6_at, val_main_call0_v0_apply, val_main_call0_cst_apply]
  show max _ (Ideal.ofBits .f32 0x00000000#32) = max _ 0
  rw [Ideal.ofBits_zero_f32]

/-- The second layer before its ReLU: z₂ = W₂ v₁ + b₂. -/
theorem v11_at (a : Fin 64) (b : Fin 1024) (h : Fin 256) :
    val_main_v11 (F := Ideal) x1 x2 x3 x4 x5 x7 x8 (ix3 a b h)
      = z2R (xrow (val_main_v2 (F := Ideal) x1 x2 x3) a b) (w1f x4) (w2f x5) (b1f x7) (b1f x8) h := by
  rw [val_main_v11_apply, val_main_v8_apply, val_main_v10_apply, val_main_v9_apply, idx_v10_ix]
  rw [Finset.sum_congr rfl fun k _ => by rw [lidx_v8_ix, ridx_v8_ix, v7_at]]
  rfl

/-- The second layer: v₂ = max z₂ 0. -/
theorem v12_at (a : Fin 64) (b : Fin 1024) (h : Fin 256) :
    val_main_v12 (F := Ideal) x1 x2 x3 x4 x5 x7 x8 (ix3 a b h)
      = v2R (xrow (val_main_v2 (F := Ideal) x1 x2 x3) a b) (w1f x4) (w2f x5) (b1f x7) (b1f x8) h := by
  rw [val_main_v12_apply, v11_at, val_main_call1_v0_apply, val_main_call1_cst_apply]
  show max _ (Ideal.ofBits .f32 0x00000000#32) = max _ 0
  rw [Ideal.ofBits_zero_f32]

/-- The network's output: W₃ v₂ + b₃. -/
theorem v16_at (a : Fin 64) (b : Fin 1024) (i : Fin 6) :
    val_main_v16 (F := Ideal) x1 x2 x3 x4 x5 x6 x7 x8 x9 (ix3 a b i)
      = ydotR (xrow (val_main_v2 (F := Ideal) x1 x2 x3) a b) (w1f x4) (w2f x5) (w3f x6) (b1f x7) (b1f x8) (b3f x9) i := by
  rw [val_main_v16_apply, val_main_v13_apply, val_main_v15_apply, val_main_v14_apply, idx_v15_ix]
  rw [Finset.sum_congr rfl fun k _ => by rw [lidx_v13_ix, ridx_v13_ix, v12_at]]
  rfl

/-- The first layer's mask as the program computes it: the comparison's bit as a number. -/
theorem v19_at (a : Fin 64) (b : Fin 1024) (h : Fin 256) :
    val_main_v19 (F := Ideal) x1 x2 x3 x4 x7 (ix3 a b h)
      = m1R (xrow (val_main_v2 (F := Ideal) x1 x2 x3) a b) (w1f x4) (b1f x7) h := by
  rw [val_main_v19_apply, val_main_v18_apply, v6_at, val_main_v17_apply, val_main_cst_apply]
  exact mask_eq _

/-- The second layer's mask. -/
theorem v22_at (a : Fin 64) (b : Fin 1024) (h : Fin 256) :
    val_main_v22 (F := Ideal) x1 x2 x3 x4 x5 x7 x8 (ix3 a b h)
      = m2R (xrow (val_main_v2 (F := Ideal) x1 x2 x3) a b) (w1f x4) (w2f x5) (b1f x7) (b1f x8) h := by
  rw [val_main_v22_apply, val_main_v21_apply, v11_at, val_main_v20_apply, val_main_cst_0_apply]
  exact mask_eq _

end Stages

end Cert.ReferenceIdeal.RefValue

end
-- ==== Proof.RefValueJac.lean ====
/-
  The reference program's Jacobian path read at an index: row i of W₃ masked by the second layer, pushed through W₂,
  masked by the first layer, and pushed through W₁ is the specification's Jacobian of output i by feature k.
-/
import proofs.«113584_j55155970015481_2_alg».proof.Proof.RefValueFwd

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx Cert.MlpJac

/-! ### The operand indices of the Jacobian path, by coordinates -/

theorem idx_v25_ix (a : Fin 64) (b : Fin 1024) (i : Fin 6) (h : Fin 256) :
    idx_main_v24 (idx_main_v25 (ix4 a b i h)) = ix2 i h :=
  funext fun d => by match d with | ⟨0, _⟩ => rfl | ⟨1, _⟩ => rfl
theorem idx_v26_ix (a : Fin 64) (b : Fin 1024) (i : Fin 6) (h : Fin 256) :
    idx_main_v23 (idx_main_v26 (ix4 a b i h)) = ix3 a b h :=
  funext fun d => by match d with | ⟨0, _⟩ => rfl | ⟨1, _⟩ => rfl | ⟨2, _⟩ => rfl
theorem lidx_v28_ix (a : Fin 64) (b : Fin 1024) (i : Fin 6) (j k : Fin 256) :
    lidx_main_v28 (ix4 a b i j) k = ix4 a b i k :=
  funext fun d => by match d with | ⟨0, _⟩ => rfl | ⟨1, _⟩ => rfl | ⟨2, _⟩ => rfl | ⟨3, _⟩ => rfl
theorem ridx_v28_ix (a : Fin 64) (b : Fin 1024) (i : Fin 6) (j k : Fin 256) :
    ridx_main_v28 (ix4 a b i j) k = ix2 k j :=
  funext fun d => by match d with | ⟨0, _⟩ => rfl | ⟨1, _⟩ => rfl
theorem idx_v30_ix (a : Fin 64) (b : Fin 1024) (i : Fin 6) (j : Fin 256) :
    idx_main_v29 (idx_main_v30 (ix4 a b i j)) = ix3 a b j :=
  funext fun d => by match d with | ⟨0, _⟩ => rfl | ⟨1, _⟩ => rfl | ⟨2, _⟩ => rfl
theorem lidx_v32_ix (a : Fin 64) (b : Fin 1024) (i : Fin 6) (k : Fin 8) (h : Fin 256) :
    lidx_main_v32 (ix4 a b i k) h = ix4 a b i h :=
  funext fun d => by match d with | ⟨0, _⟩ => rfl | ⟨1, _⟩ => rfl | ⟨2, _⟩ => rfl | ⟨3, _⟩ => rfl
theorem ridx_v32_ix (a : Fin 64) (b : Fin 1024) (i : Fin 6) (k : Fin 8) (h : Fin 256) :
    ridx_main_v32 (ix4 a b i k) h = ix2 h k :=
  funext fun d => by match d with | ⟨0, _⟩ => rfl | ⟨1, _⟩ => rfl

section Stages

variable (x1 : (⟨S64x1024x6, .f32⟩ : BufTy).Contents (Elt Ideal)) (x2 x3 : (⟨S64x1024, .f32⟩ : BufTy).Contents (Elt Ideal))
  (x4 : (⟨S256x8, .f32⟩ : BufTy).Contents (Elt Ideal)) (x5 : (⟨S256x256, .f32⟩ : BufTy).Contents (Elt Ideal))
  (x6 : (⟨S6x256, .f32⟩ : BufTy).Contents (Elt Ideal)) (x7 x8 : (⟨S256, .f32⟩ : BufTy).Contents (Elt Ideal))

/-- Row i of W₃ masked by the second layer. -/
theorem v27_at (a : Fin 64) (b : Fin 1024) (i : Fin 6) (h : Fin 256) :
    val_main_v27 (F := Ideal) x1 x2 x3 x4 x5 x6 x7 x8 (ix4 a b i h)
      = aR (xrow (val_main_v2 (F := Ideal) x1 x2 x3) a b) (w1f x4) (w2f x5) (w3f x6) (b1f x7) (b1f x8) i h := by
  rw [val_main_v27_apply, val_main_v25_apply, val_main_v24_apply, idx_v25_ix, val_main_v26_apply, val_main_v23_apply,
    idx_v26_ix, v22_at]
  rfl

/-- … pushed through W₂ and masked by the first layer. -/
theorem v31_at (a : Fin 64) (b : Fin 1024) (i : Fin 6) (j : Fin 256) :
    val_main_v31 (F := Ideal) x1 x2 x3 x4 x5 x6 x7 x8 (ix4 a b i j)
      = bR (xrow (val_main_v2 (F := Ideal) x1 x2 x3) a b) (w1f x4) (w2f x5) (w3f x6) (b1f x7) (b1f x8) i j := by
  rw [val_main_v31_apply, val_main_v28_apply, val_main_v30_apply, val_main_v29_apply, idx_v30_ix, v19_at]
  rw [Finset.sum_congr rfl fun k _ => by rw [lidx_v28_ix, ridx_v28_ix, v27_at]]
  rfl

/-- The Jacobian of output i by feature k. -/
theorem v32_at (a : Fin 64) (b : Fin 1024) (i : Fin 6) (k : Fin 8) :
    val_main_v32 (F := Ideal) x1 x2 x3 x4 x5 x6 x7 x8 (ix4 a b i k)
      = jacR (xrow (val_main_v2 (F := Ideal) x1 x2 x3) a b) (w1f x4) (w2f x5) (w3f x6) (b1f x7) (b1f x8) i k := by
  rw [val_main_v32_apply]
  rw [Finset.sum_congr rfl fun h _ => by rw [lidx_v32_ix, ridx_v32_ix, v31_at]]
  rfl

end Stages

end Cert.ReferenceIdeal.RefValue

end
-- ==== Proof.RefValue.lean ====
/-
  The reference program's run read as the specification's result arrays: the network's output and the three blocks
  of its Jacobian (with respect to the first six features, feature 6 and feature 7), at every row of the input.
-/
import proofs.«113584_j55155970015481_2_alg».proof.Proof.RefValueJac

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx Cert.MlpJac

/-! ### The slices' and reshapes' operand indices, by coordinates -/

theorem idx_v33_ix (a : Fin 64) (b : Fin 1024) (i : Fin 6) (k : Fin 6) :
    idx_main_v33 (ix4 a b i k) = ix4 a b i (Fin.castLE (by decide) k : Fin 8) :=
  funext fun d => by match d with | ⟨0, _⟩ => rfl | ⟨1, _⟩ => rfl | ⟨2, _⟩ => rfl | ⟨3, _⟩ => rfl

/-- Dropping a trailing axis of extent one keeps the three coordinates; the slice then sits at feature 6. -/
theorem idx_v35_ix (a : Fin 64) (b : Fin 1024) (i : Fin 6) :
    idx_main_v34 (idx_main_v35 (ix3 a b i)) = ix4 a b i (6 : Fin 8) :=
  funext fun d => Fin.ext (by
    have ha : a.val < 64 := a.isLt
    have hb : b.val < 1024 := b.isLt
    have hi : i.val < 6 := i.isLt
    match d with
    | ⟨0, _⟩ => show ((a.val * 1024 + b.val) * 6 + i.val) / 6144 = a.val; omega
    | ⟨1, _⟩ => show ((a.val * 1024 + b.val) * 6 + i.val) / 6 % 1024 = b.val; omega
    | ⟨2, _⟩ => show ((a.val * 1024 + b.val) * 6 + i.val) / 1 % 6 = i.val; omega
    | ⟨3, _⟩ => rfl)

/-- … and at feature 7 for the last result. -/
theorem idx_v37_ix (a : Fin 64) (b : Fin 1024) (i : Fin 6) :
    idx_main_v36 (idx_main_v37 (ix3 a b i)) = ix4 a b i (7 : Fin 8) :=
  funext fun d => Fin.ext (by
    have ha : a.val < 64 := a.isLt
    have hb : b.val < 1024 := b.isLt
    have hi : i.val < 6 := i.isLt
    match d with
    | ⟨0, _⟩ => show ((a.val * 1024 + b.val) * 6 + i.val) / 6144 = a.val; omega
    | ⟨1, _⟩ => show ((a.val * 1024 + b.val) * 6 + i.val) / 6 % 1024 = b.val; omega
    | ⟨2, _⟩ => show ((a.val * 1024 + b.val) * 6 + i.val) / 1 % 6 = i.val; omega
    | ⟨3, _⟩ => rfl)

/-- The [64, 1024, 8] array of input rows: the six entries of y, then erate, then T. -/
def xc (y : (⟨S64x1024x6, .f32⟩ : BufTy).Contents (Elt Ideal)) (e T : (⟨S64x1024, .f32⟩ : BufTy).Contents (Elt Ideal)) : (⟨S64x1024x8, .f32⟩ : BufTy).Contents (Elt Ideal) :=
  concatenate S64x1024x8 2 [⟨S64x1024x6, y⟩, ⟨S64x1024x1, broadcastInDim S64x1024x1 ![0, 1] bcast_S64x1024_S64x1024x1_0_1 e⟩, ⟨S64x1024x1, broadcastInDim S64x1024x1 ![0, 1] bcast_S64x1024_S64x1024x1_0_1 T⟩] concatenates_S64x1024x6_S64x1024x1_S64x1024x1_S64x1024x8_d2

/-- The program's third stage is that array. -/
theorem v2_eq_xc (y : (⟨S64x1024x6, .f32⟩ : BufTy).Contents (Elt Ideal)) (e T : (⟨S64x1024, .f32⟩ : BufTy).Contents (Elt Ideal)) :
    val_main_v2 (F := Ideal) y e T = xc y e T := rfl

section Results

variable (x1 : (⟨S64x1024x6, .f32⟩ : BufTy).Contents (Elt Ideal)) (x2 x3 : (⟨S64x1024, .f32⟩ : BufTy).Contents (Elt Ideal))
  (x4 : (⟨S256x8, .f32⟩ : BufTy).Contents (Elt Ideal)) (x5 : (⟨S256x256, .f32⟩ : BufTy).Contents (Elt Ideal))
  (x6 : (⟨S6x256, .f32⟩ : BufTy).Contents (Elt Ideal)) (x7 x8 : (⟨S256, .f32⟩ : BufTy).Contents (Elt Ideal))
  (x9 : (⟨S6, .f32⟩ : BufTy).Contents (Elt Ideal))

/-- Result 0 is the network's output at every row. -/
theorem res0_eq :
    val_main_v16 (F := Ideal) x1 x2 x3 x4 x5 x6 x7 x8 x9 = res0 (xc x1 x2 x3) x4 x5 x6 x7 x8 x9 := by
  funext j
  obtain ⟨a, b, i, rfl⟩ : ∃ (a : Fin 64) (b : Fin 1024) (i : Fin 6), j = ix3 a b i := ⟨j 0, j 1, j 2, eq_ix3 j⟩
  rw [v16_at, v2_eq_xc]
  rfl

/-- Result 1 is the Jacobian's first six columns. -/
theorem res1_eq :
    val_main_v33 (F := Ideal) x1 x2 x3 x4 x5 x6 x7 x8 = res1 (xc x1 x2 x3) x4 x5 x6 x7 x8 := by
  funext j
  obtain ⟨a, b, i, k, rfl⟩ : ∃ (a : Fin 64) (b : Fin 1024) (i : Fin 6) (k : Fin 6), j = ix4 a b i k :=
    ⟨j 0, j 1, j 2, j 3, eq_ix4 j⟩
  rw [val_main_v33_apply, idx_v33_ix, v32_at, v2_eq_xc]
  rfl

/-- Result 2 is the Jacobian's column 6. -/
theorem res2_eq :
    val_main_v35 (F := Ideal) x1 x2 x3 x4 x5 x6 x7 x8 = res2 (xc x1 x2 x3) x4 x5 x6 x7 x8 := by
  funext j
  obtain ⟨a, b, i, rfl⟩ : ∃ (a : Fin 64) (b : Fin 1024) (i : Fin 6), j = ix3 a b i := ⟨j 0, j 1, j 2, eq_ix3 j⟩
  rw [val_main_v35_apply, val_main_v34_apply, idx_v35_ix, v32_at, v2_eq_xc]
  rfl

/-- Result 3 is the Jacobian's column 7. -/
theorem res3_eq :
    val_main_v37 (F := Ideal) x1 x2 x3 x4 x5 x6 x7 x8 = res3 (xc x1 x2 x3) x4 x5 x6 x7 x8 := by
  funext j
  obtain ⟨a, b, i, rfl⟩ : ∃ (a : Fin 64) (b : Fin 1024) (i : Fin 6), j = ix3 a b i := ⟨j 0, j 1, j 2, eq_ix3 j⟩
  rw [val_main_v37_apply, val_main_v36_apply, idx_v37_ix, v32_at, v2_eq_xc]
  rfl

end Results

/-- On every device, from any memory with zero counters, every weakly fair execution of the reference program
    terminates with its four results at the specification's arrays of the argument arrays, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v16) = Cert.MlpJac.res0 (xc (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v33) = Cert.MlpJac.res1 (xc (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v35) = Cert.MlpJac.res2 (xc (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v37) = Cert.MlpJac.res3 (xc (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨(h c).1.trans ((val_main_v16_eq _ _ _ _ _ _ _ _ _).trans (res0_eq _ _ _ _ _ _ _ _ _)),
       (h c).2.1.trans ((val_main_v33_eq _ _ _ _ _ _ _ _).trans (res1_eq _ _ _ _ _ _ _ _)),
       (h c).2.2.1.trans ((val_main_v35_eq _ _ _ _ _ _ _ _).trans (res2_eq _ _ _ _ _ _ _ _)),
       (h c).2.2.2.1.trans ((val_main_v37_eq _ _ _ _ _ _ _ _).trans (res3_eq _ _ _ _ _ _ _ _)),
       (h c).2.2.2.2⟩)
    (Cert.ReferenceIdeal.Value.run (F := Ideal) m ρ)

end Cert.ReferenceIdeal.RefValue

end
-- ==== Proof.lean ====
/-
  The certificate's claim: the three frames, the (empty) list of idealization rewrites, and the equality of the
  idealized kernel program and the idealized reference on the extended reals.

  Both programs compute, for each of the 64 × 1024 rows of eight input features, a three-layer ReLU network and its
  Jacobian.  The kernel program reads the forward weights through precomputed transposes, takes ReLU as the product
  with the mask [z > 0], stacks the output and the row-major Jacobian into 54 columns, sixteen blocks of 4096 rows,
  and slices the result apart afterwards; the reference takes ReLU as a maximum and contracts the batched arrays
  directly.  On the extended reals z · [z > 0] = max z 0 for every z, every sum is the same sum of the same products,
  and roundings are the identity, so the four results are the same arrays.  The kernel side is read off its frame
  run (the blocks cover the result array); the reference side is its generated run read index by index; both land
  on one specification of the four arrays.
-/
import proofs.«113584_j55155970015481_2_alg».proof.Defs
import proofs.«113584_j55155970015481_2_alg».proof.Proof.Gen.Kernel
import proofs.«113584_j55155970015481_2_alg».proof.Proof.Gen.KernelIdeal
import proofs.«113584_j55155970015481_2_alg».proof.Proof.Gen.ReferenceIdeal
import proofs.«113584_j55155970015481_2_alg».proof.Proof.Gen.Pre_finite_inputs
import proofs.«113584_j55155970015481_2_alg».proof.Proof.Gen.ReferenceIdeal.Read
import proofs.«113584_j55155970015481_2_alg».proof.Proof.KernelFrame
import proofs.«113584_j55155970015481_2_alg».proof.Proof.KernelValue
import proofs.«113584_j55155970015481_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference is host operations only: its generated run, the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The idealization rewrote nothing. -/
theorem preserves : Cert.preserves_Kernel_KernelIdeal := trivial

/-- From memories agreeing on the arguments both idealized programs end with the specification's four arrays of
    the same argument arrays. -/
theorem algebraic : Cert.algebraic_KernelIdeal_ReferenceIdeal := by
  intro m ρ m' ρ' _ hagree
  refine ⟨fun c => Cert.MlpJac.res0 (Cert.KernelIdeal.Hand.xcK (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.MlpJac.res1 (Cert.KernelIdeal.Hand.xcK (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.MlpJac.res2 (Cert.KernelIdeal.Hand.xcK (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.MlpJac.res3 (Cert.KernelIdeal.Hand.xcK (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Hand.run_spec m ρ, ?_⟩
  refine (θ_run Cert.ReferenceIdeal.defs _ _).mono (fun _ h c => ?_) (Cert.ReferenceIdeal.RefValue.run_spec m' ρ')
  obtain ⟨h0, h1, h2, h3, hargs⟩ := h c
  obtain ⟨a0, a1, a2, a3, a4, a5, a6, a7, a8, a9⟩ := hagree c
  refine ⟨h0.trans ?_, h1.trans ?_, h2.trans ?_, h3.trans ?_, hargs⟩
  · rw [a1, a2, a3, a4, a5, a6, a7, a8, a9]; rfl
  all_goals rw [a1, a2, a3, a4, a5, a6, a7, a8]; rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
